-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S1024x2048 .f32) (main_arg3 : FVec F S1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x2048x1024 : Shape := ⟨3, ![8, 2048, 1024]⟩
abbrev S1024x2048 : Shape := ⟨2, ![1024, 2048]⟩
abbrev S1024 : Shape := ⟨1, ![1024]⟩
abbrev S1024x1024 : Shape := ⟨2, ![1024, 1024]⟩
abbrev S1x512x1024 : Shape := ⟨3, ![1, 512, 1024]⟩
abbrev S1x1024x1024 : Shape := ⟨3, ![1, 1024, 1024]⟩
abbrev S512x1 : Shape := ⟨2, ![512, 1]⟩
abbrev S512x1024 : Shape := ⟨2, ![512, 1024]⟩
abbrev S512 : Shape := ⟨1, ![512]⟩
abbrev S1x1024 : Shape := ⟨2, ![1, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S8x2048x1024, .bf16⟩
  | .hbm, ⟨13, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1x512x1024, .f32⟩
  | .local _ .vmem, ⟨10, _⟩ => ⟨S1x512x1024, .f32⟩
  | .local _ .vmem, ⟨11, _⟩ => ⟨S512x1, .f32⟩
  | .local _ .vmem, ⟨12, _⟩ => ⟨S512x1, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_23 : BitVec 32 := 0#32
  let v41 : BitVec 1 := Scalar.cmpi .ne v40 c0_i32_23
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .bf16 = 32 ∨ (Rect.block (s := S8x2048x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .f32 = 32 ∨ (Rect.block (s := S8x2048x1024) S1x512x1024.size (cc0_transform_7 i) (hinb0_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x1024, .f32⟩
  | .hbm, ⟨22, _⟩ => ⟨S8x2048x2048, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x1024_S8x2048x1024_S8x2048x2048_d2 : Shape.Concatenates [S8x2048x1024, S8x2048x1024] S8x2048x2048 2
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S1024x2048_S8x2048x1024_2_1_01_0_n_n_wf : DotDims.WF S8x2048x2048 S1024x2048 S8x2048x1024 [2] [1] [0, 1] [0] [] []

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S1024x2048_S8x2048x1024_2_1_01_0_n_n : DotDims S8x2048x2048 S1024x2048 S8x2048x1024 where
  lhsContracting := [2]
  rhsContracting := [1]
  lhsNonContracting := [0, 1]
  rhsNonContracting := [0]
  lhsBatch := []
  rhsBatch := []
  wf := dot_S8x2048x2048_S1024x2048_S8x2048x1024_2_1_01_0_n_n_wf

class Facts : Prop extends Facts₀ where

variable [Facts]
-- ==== Proof.Spec.lean ====
/-
  The mathematics of the attention block, over the extended reals, free of any program.

  One query row `q` (D features) attends to N key/value rows `V` (the keys ARE the values):
  scores `S n = ∑ d, q d · V n d`, weights `exp (S n - M) / ∑ exp (S · - M)` with `M` the largest score,
  the context `∑ n, weight n · V n`; the context and the query, laid side by side, are projected by `W` (a row
  per output feature, 2·D columns) with a bias, and the projected row is normalised: its mean removed, scaled by the
  reciprocal root of its variance plus a small constant, then by `gamma`, and shifted by `beta`.

  Two arrangements of the same numbers are stated. `ctxRef` takes the softmax over all keys at once. `ctxTiled`
  walks the keys in two tiles of T rows, keeping a running maximum `m`, a running normaliser `l` and a running
  weighted sum `acc`, rescaling the old `l` and `acc` by `exp (m_old - m_new)` whenever the maximum moves, and
  divides at the end. Likewise `projRef` contracts the 2·D columns in one sum and `projSplit` in two sums of D.
  The normalisation `ln` is one function; both arrangements feed it.
-/
import Idealize.ShloMosaic.PureOps.Ideal
import Mathlib.Algebra.BigOperators.Fin
import Mathlib.Data.Fin.Tuple.Basic

open scoped BigOperators

noncomputable section

namespace Cert.Attn

open Idealize.ShloMosaic

variable {D T N H : ℕ}

/-- The score of a query row against a key row. -/
def dot (q k : Fin D → EReal) : EReal := ∑ d : Fin D, q d * k d

/-- The largest of finitely many scores, from `-∞`. -/
def smax (S : Fin N → EReal) : EReal := (Finset.univ : Finset (Fin N)).fold max ⊥ S

/-! ## All keys at once -/

/-- The unnormalised weight of key `n`: `exp (S n - max S)`. -/
def wRef (q : Fin D → EReal) (V : Fin N → Fin D → EReal) (n : Fin N) : EReal :=
  Ideal.exp (dot q (V n) - smax fun n' => dot q (V n'))

/-- The context: the keys' rows weighted by the softmax of the scores. -/
def ctxRef (q : Fin D → EReal) (V : Fin N → Fin D → EReal) (d : Fin D) : EReal :=
  ∑ n : Fin N, Ideal.div (wRef q V n) (∑ n' : Fin N, wRef q V n') * V n d

/-! ## Tile by tile -/

/-- The running maximum after a tile: the old one against the tile's largest score. -/
def tMax (m : EReal) (q : Fin D → EReal) (V : Fin T → Fin D → EReal) : EReal :=
  max m (smax fun n => dot q (V n))

/-- The factor that rescales what was accumulated under the old maximum. -/
def tScale (m : EReal) (q : Fin D → EReal) (V : Fin T → Fin D → EReal) : EReal :=
  Ideal.exp (m - tMax m q V)

/-- A tile's weight of key `n` under the new running maximum. -/
def tW (m : EReal) (q : Fin D → EReal) (V : Fin T → Fin D → EReal) (n : Fin T) : EReal :=
  Ideal.exp (dot q (V n) - tMax m q V)

/-- The running normaliser after a tile. -/
def tL (m l : EReal) (q : Fin D → EReal) (V : Fin T → Fin D → EReal) : EReal :=
  tScale m q V * l + ∑ n : Fin T, tW m q V n

/-- The running weighted sum after a tile. -/
def tAcc (m : EReal) (acc : Fin D → EReal) (q : Fin D → EReal) (V : Fin T → Fin D → EReal) (d : Fin D) : EReal :=
  tScale m q V * acc d + ∑ n : Fin T, tW m q V n * V n d

/-- The context from two tiles: start at `m = -∞`, `l = 0`, `acc = 0`; take tile 0, then tile 1; divide. -/
def ctxTiled (q : Fin D → EReal) (V0 V1 : Fin T → Fin D → EReal) (d : Fin D) : EReal :=
  Ideal.div
    (tAcc (tMax ⊥ q V0) (tAcc ⊥ (fun _ => 0) q V0) q V1 d)
    (tL (tMax ⊥ q V0) (tL ⊥ 0 q V0) q V1)

/-! ## The projection of (context, query) -/

/-- One contraction over the 2·D columns of `W`'s row `h`, the context first and the query after it. -/
def projRef (c q : Fin D → EReal) (W : Fin H → Fin (D + D) → EReal) (bias : Fin H → EReal) (h : Fin H) : EReal :=
  (∑ k : Fin (D + D), Fin.append c q k * W h k) + bias h

/-- The same in two contractions of D columns each. -/
def projSplit (c q : Fin D → EReal) (W : Fin H → Fin (D + D) → EReal) (bias : Fin H → EReal) (h : Fin H) : EReal :=
  ((∑ k : Fin D, c k * W h (Fin.castAdd D k)) + ∑ k : Fin D, q k * W h (Fin.natAdd D k)) + bias h

/-! ## The normalisation of a projected row -/

/-- The row's mean: its sum over the count as the programs write it, the f32 word of 1024. -/
def lnMean (p : Fin H → EReal) : EReal := Ideal.div (∑ k : Fin H, p k) (Ideal.ofBits .f32 0x44800000#32)

/-- The row's variance: the mean of the squared deviations, the same divisor. -/
def lnVar (p : Fin H → EReal) : EReal :=
  Ideal.div (∑ k : Fin H, (p k - lnMean p) * (p k - lnMean p)) (Ideal.ofBits .f32 0x44800000#32)

/-- The normalised row: deviation times the reciprocal root of (variance + the f32 word nearest 1e-5), times gamma, plus beta. -/
def ln (p g b : Fin H → EReal) (h : Fin H) : EReal :=
  ((p h - lnMean p) * Ideal.rsqrt (lnVar p + Ideal.ofBits .f32 0x3727C5AC#32)) * g h + b h

/-! ## The two whole rows -/

/-- A result row, all keys at once. -/
def outRef (q : Fin D → EReal) (V : Fin N → Fin D → EReal) (W : Fin H → Fin (D + D) → EReal)
    (bias g b : Fin H → EReal) : Fin H → EReal :=
  ln (projRef (ctxRef q V) q W bias) g b

/-- A result row, the keys in two tiles and the projection in two halves. -/
def outTiled (q : Fin D → EReal) (V0 V1 : Fin T → Fin D → EReal) (W : Fin H → Fin (D + D) → EReal)
    (bias g b : Fin H → EReal) : Fin H → EReal :=
  ln (projSplit (ctxTiled q V0 V1) q W bias) g b

end Cert.Attn

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.TileReads.lean ====
/-
  One tile's update, read entry by entry.

  With `q` the block of 512 query rows and `v` a tile of 1024 key rows (each of 1024 features), row p of the scores is
  `s n = ∑ d, q p d · v n d`; the running maximum becomes `max m (max_n s n)`, the rescaling factor is
  `exp (m - m')`, the tile's weights are `exp (s n - m')`, the normaliser becomes `factor · l + ∑ n, weight n` and
  the weighted sum `factor · acc d + ∑ n, weight n · v n d`. These are Spec's `tMax`, `tScale`, `tW`, `tL`, `tAcc` of
  the row `q p` and the tile's rows.
-/
import proofs.«100237_j17497696764367_2_alg».proof.Proof.Gen.KernelIdeal.Skeleton
import proofs.«100237_j17497696764367_2_alg».proof.Proof.Spec
import proofs.«100237_j17497696764367_2_alg».proof.Proof.LibRowReads
import proofs.«100237_j17497696764367_2_alg».proof.Proof.LibColumnReads
import proofs.«100237_j17497696764367_2_alg».proof.Proof.LibDotNT
import proofs.«100237_j17497696764367_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Blk

open Cert.KernelIdeal Cert.KernelIdeal.Gen Cert.Attn

/-- Row p of a block of query rows. -/
def qrow (q : Vec Ideal S1x512x1024 .f32) (p : Fin 512) : Fin 1024 → EReal := fun d => q (ix3 (0 : Fin 1) p d)

/-- The rows of a tile of keys. -/
def vrows (v : Vec Ideal S1x1024x1024 .bf16) : Fin 1024 → Fin 1024 → EReal := fun n d => v (ix3 (0 : Fin 1) n d)

/-- The word of -∞ denotes the bottom of the extended reals. -/
theorem ofBits_ninf : Ideal.ofBits .f32 0xFF800000#32 = (⊥ : EReal) := by
  simp [Ideal.ofBits, Ideal.ieee]

theorem dotNT_eq : dot_S512x1024_S1024x1024_S512x1024_1_1_0_0_n_n = DotDims.transposedRhs 512 1024 1024 := rfl
theorem dotNN_eq : dot_S512x1024_S1024x1024_S512x1024_1_0_0_1_n_n = DotDims.plain 512 1024 1024 := rfl

/-- The query block with its unit axis dropped (and its format changed: the identity here). -/
theorem pay8_apply (q : Vec Ideal S1x512x1024 .f32) (p : Fin 512) (d : Fin 1024) :
    k0_pay8 (F := Ideal) q (ix2 p d) = qrow q p d := by
  unfold k0_pay8 qrow
  exact shapeCast_1ab_ab_apply q shapeCasts_S1x512x1024_S512x1024 p d

/-- The key tile with its unit axis dropped. -/
theorem pay9_apply (v : Vec Ideal S1x1024x1024 .bf16) (n : Fin 1024) (d : Fin 1024) :
    k0_pay9 (F := Ideal) v (ix2 n d) = vrows v n d := by
  unfold k0_pay9 vrows
  exact shapeCast_1ab_ab_apply v shapeCasts_S1x1024x1024_S1024x1024 n d

/-- The scores: row p against key n. -/
theorem pay10_apply (q : Vec Ideal S1x512x1024 .f32) (v : Vec Ideal S1x1024x1024 .bf16) (p : Fin 512) (n : Fin 1024) :
    k0_pay10 (F := Ideal) q v (ix2 p n) = dot (qrow q p) (vrows v n) := by
  unfold k0_pay10 dot
  refine (Cert.Lib.DotNT.matmul_zero_apply (M := 512) (K := 1024) (N := 1024) none (k0_pay8 (F := Ideal) q) (k0_pay9 (F := Ideal) v) p n).trans ?_
  exact Finset.sum_congr rfl fun d _ => by rw [pay8_apply, pay9_apply]

/-- The running maximum after the tile. -/
theorem pay11_apply (q : Vec Ideal S1x512x1024 .f32) (v : Vec Ideal S1x1024x1024 .bf16) (m : Vec Ideal S512x1 .f32) (p : Fin 512) (u : Fin 1) :
    k0_pay11 (F := Ideal) q v m (ix2 p u) = tMax (m (ix2 p u)) (qrow q p) (vrows v) := by
  unfold k0_pay11 tMax smax
  refine (maximumf_apply _ _ _).trans ?_
  refine congrArg (max (m (ix2 p u))) ?_
  refine (Cert.LibColumnReads.shapeCast_a_a1_apply _ shapeCasts_S512_S512x1 p u).trans ?_
  refine (Cert.LibRowReads.rowMax_apply (k0_pay10 (F := Ideal) q v) 0xFF800000#32 reduces_S512x1024_S512 (.inl rfl) rfl p).trans ?_
  rw [ofBits_ninf]
  exact congrArg (fun f => Finset.fold max (⊥ : EReal) f (Finset.univ : Finset (Fin 1024))) (funext fun n => pay10_apply q v p n)

/-- The factor rescaling what was accumulated under the old maximum `m'` (the kernel loads the old maximum twice). -/
theorem pay12_apply (q : Vec Ideal S1x512x1024 .f32) (v : Vec Ideal S1x1024x1024 .bf16) (m m' : Vec Ideal S512x1 .f32) (p : Fin 512) (u : Fin 1) :
    k0_pay12 (F := Ideal) q v m m' (ix2 p u) = Ideal.exp (m' (ix2 p u) - tMax (m (ix2 p u)) (qrow q p) (vrows v)) := by
  unfold k0_pay12
  show Ideal.exp (m' (ix2 p u) - k0_pay11 (F := Ideal) q v m (ix2 p u)) = _
  rw [pay11_apply]

/-- The tile's weights under the new maximum. -/
theorem pay13_apply (q : Vec Ideal S1x512x1024 .f32) (v : Vec Ideal S1x1024x1024 .bf16) (m : Vec Ideal S512x1 .f32) (p : Fin 512) (n : Fin 1024) :
    k0_pay13 (F := Ideal) q v m (ix2 p n) = tW (m (ix2 p (0 : Fin 1))) (qrow q p) (vrows v) n := by
  unfold k0_pay13 tW
  show Ideal.exp (k0_pay10 (F := Ideal) q v (ix2 p n) - broadcastTo S512x1024 (k0_pay11 (F := Ideal) q v m) broadcasts_S512x1_S512x1024 (ix2 p n)) = _
  rw [pay10_apply, Cert.LibColumnReads.broadcastTo_a1_ab_apply _ broadcasts_S512x1_S512x1024 p n, pay11_apply]

/-- The running normaliser after the tile. -/
theorem pay14_apply (q : Vec Ideal S1x512x1024 .f32) (v : Vec Ideal S1x1024x1024 .bf16) (m l : Vec Ideal S512x1 .f32) (p : Fin 512) :
    k0_pay14 (F := Ideal) q v m m l (ix2 p (0 : Fin 1)) = tL (m (ix2 p (0 : Fin 1))) (l (ix2 p (0 : Fin 1))) (qrow q p) (vrows v) := by
  unfold k0_pay14 tL tScale
  rw [shapeCast_self]
  show k0_pay12 (F := Ideal) q v m m (ix2 p (0 : Fin 1)) * l (ix2 p (0 : Fin 1))
      + shapeCast S512x1 (multiReduction (F := Ideal) .add [1] S512 (k0_pay13 (F := Ideal) q v m) 0x00000000#32 reduces_S512x1024_S512 (.inl rfl) rfl) shapeCasts_S512_S512x1 (ix2 p (0 : Fin 1)) = _
  rw [pay12_apply, Cert.LibColumnReads.shapeCast_a_a1_apply _ shapeCasts_S512_S512x1 p (0 : Fin 1),
    Cert.LibRowReads.rowSum_apply (k0_pay13 (F := Ideal) q v m) 0x00000000#32 reduces_S512x1024_S512 (.inl rfl) rfl p]
  exact congrArg₂ (fun a b : EReal => a + b) rfl (Finset.sum_congr rfl fun n _ => pay13_apply q v m p n)

/-- The running weighted sum after the tile. -/
theorem pay15_apply (q : Vec Ideal S1x512x1024 .f32) (v : Vec Ideal S1x1024x1024 .bf16) (m : Vec Ideal S512x1 .f32) (acc : Vec Ideal S512x1024 .f32) (p : Fin 512) (d : Fin 1024) :
    k0_pay15 (F := Ideal) q v m m acc (ix2 p d) = tAcc (m (ix2 p (0 : Fin 1))) (fun d' => acc (ix2 p d')) (qrow q p) (vrows v) d := by
  unfold k0_pay15 tAcc tScale
  show broadcastTo S512x1024 (k0_pay12 (F := Ideal) q v m m) broadcasts_S512x1_S512x1024 (ix2 p d) * acc (ix2 p d)
      + FloatOps.matmul dot_S512x1024_S1024x1024_S512x1024_1_0_0_1_n_n none (truncf .bf16 (k0_pay13 (F := Ideal) q v m) bitsLt_bf16_f32) (k0_pay9 (F := Ideal) v) (constant S512x1024 .f32 0x00000000#32) (ix2 p d) = _
  rw [Cert.LibColumnReads.broadcastTo_a1_ab_apply _ broadcasts_S512x1_S512x1024 p d, pay12_apply]
  refine congrArg₂ (fun a b : EReal => a + b) rfl ?_
  refine (Cert.Lib.PlainDot.matmul_zero_apply 512 1024 1024 none (truncf .bf16 (k0_pay13 (F := Ideal) q v m) bitsLt_bf16_f32) (k0_pay9 (F := Ideal) v) (ix2 p d)).trans ?_
  exact Finset.sum_congr rfl fun n _ => by
    show k0_pay13 (F := Ideal) q v m (ix2 p n) * k0_pay9 (F := Ideal) v (ix2 n d) = _
    rw [pay13_apply, pay9_apply]

end Cert.KernelIdeal.Blk
end
-- ==== Proof.FinishRead.lean ====
/-
  The finishing step of a block, read entry by entry.

  From the accumulated weighted sum `acc` and normaliser `l` of 512 query rows the body forms the context
  `acc / l`, projects (context through one 1024×1024 matrix, the query rows through another, plus a bias row), and
  normalises each projected row: mean removed, scaled by the reciprocal root of the variance plus a constant, times
  gamma, plus beta. Entry (p, h) is Spec's `ln` of row p's projection at h.
-/
import proofs.«100237_j17497696764367_2_alg».proof.Proof.TileReads

noncomputable section

open Idealize.ShloMosaic Idealize.ShloMosaic.ValueIdx

namespace Cert.KernelIdeal.Blk

open Cert.KernelIdeal Cert.KernelIdeal.Gen Cert.Attn

/-- The projected rows before normalisation. -/
def projV (c : FVec Ideal S512x1024 .bf16) (acc : Vec Ideal S512x1024 .f32) (l : Vec Ideal S512x1 .f32)
    (wc wq : Vec Ideal S1024x1024 .bf16) (bias : Vec Ideal S1024 .f32) : FVec Ideal S512x1024 .f32 :=
  have v44 : FVec Ideal S512x1024 .f32 := broadcastTo S512x1024 l broadcasts_S512x1_S512x1024
  have v45 : FVec Ideal S512x1024 .f32 := divf acc v44
  have v46 : FVec Ideal S512x1024 .bf16 := truncf .bf16 v45 bitsLt_bf16_f32
  have v48 : FVec Ideal S1024x1024 .bf16 := shapeCast S1024x1024 wc shapeCasts_S1024x1024_S1024x1024
  have cst_30 : FVec Ideal S512x1024 .f32 := constant S512x1024 .f32 0x00000000#32
  have v49 : FVec Ideal S512x1024 .f32 := matmul dot_S512x1024_S1024x1024_S512x1024_1_0_0_1_n_n none v46 v48 cst_30
  have v51 : FVec Ideal S1024x1024 .bf16 := shapeCast S1024x1024 wq shapeCasts_S1024x1024_S1024x1024
  have cst_33 : FVec Ideal S512x1024 .f32 := constant S512x1024 .f32 0x00000000#32
  have v52 : FVec Ideal S512x1024 .f32 := matmul dot_S512x1024_S1024x1024_S512x1024_1_0_0_1_n_n none c v51 cst_33
  have v53 : FVec Ideal S512x1024 .f32 := addf v49 v52
  have v55 : FVec Ideal S1x1024 .f32 := shapeCast S1x1024 bias shapeCasts_S1024_S1x1024
  have v56 : FVec Ideal S512x1024 .f32 := broadcastTo S512x1024 v55 broadcasts_S1x1024_S512x1024
  addf v53 v56

/-- The row-wise normalisation of a 512×1024 block, as the body writes it. -/
def lnV (x : FVec Ideal S512x1024 .f32) (g b : Vec Ideal S1024 .f32) : FVec Ideal S512x1024 .f32 :=
  have v58 : FVec Ideal S512 .f32 := multiReduction .add [1] S512 x 0x00000000#32 reduces_S512x1024_S512 (.inl rfl) rfl
  have v61 : FVec Ideal S512x1 .f32 := divf (shapeCast S512x1 v58 shapeCasts_S512_S512x1) (broadcast S512x1 (Scalar.ofBits .f32 0x44800000#32))
  have v63 : FVec Ideal S512x1024 .f32 := subf x (broadcastTo S512x1024 v61 broadcasts_S512x1_S512x1024)
  have v65 : FVec Ideal S512 .f32 := multiReduction .add [1] S512 (mulf v63 v63) 0x00000000#32 reduces_S512x1024_S512 (.inl rfl) rfl
  have v68 : FVec Ideal S512x1 .f32 := divf (shapeCast S512x1 v65 shapeCasts_S512_S512x1) (broadcast S512x1 (Scalar.ofBits .f32 0x44800000#32))
  have v71 : FVec Ideal S512x1 .f32 := rsqrt (addf v68 (broadcast S512x1 (Scalar.ofBits .f32 0x3727C5AC#32)))
  addf (mulf (mulf v63 (broadcastTo S512x1024 v71 broadcasts_S512x1_S512x1024))
      (broadcastTo S512x1024 (shapeCast S1x1024 g shapeCasts_S1024_S1x1024) broadcasts_S1x1024_S512x1024))
    (broadcastTo S512x1024 (shapeCast S1x1024 b shapeCasts_S1024_S1x1024) broadcasts_S1x1024_S512x1024)

/-- The finishing payload is the normalisation of the projection. -/
theorem pay4_eq (c : FVec Ideal S512x1024 .bf16) (acc : Vec Ideal S512x1024 .f32) (l : Vec Ideal S512x1 .f32)
    (wc wq : Vec Ideal S1024x1024 .bf16) (bias g b : Vec Ideal S1024 .f32) :
    k0_pay4 (F := Ideal) c acc l wc wq bias g b = lnV (projV c acc l wc wq bias) g b := rfl

/-- A feature row laid over all 512 rows reads the feature. -/
theorem rowBcast_apply (x : Vec Ideal S1024 .f32) (p : Fin 512) (h : Fin 1024) :
    broadcastTo S512x1024 (shapeCast S1x1024 x shapeCasts_S1024_S1x1024) broadcasts_S1x1024_S512x1024 (ix2 p h) = x (ix1 h) :=
  (broadcastTo_1b_ab_apply _ broadcasts_S1x1024_S512x1024 p h).trans (shapeCast_a_1a_apply x shapeCasts_S1024_S1x1024 (0 : Fin 1) h)

/-- A column laid over all 1024 features reads the column. -/
theorem colBcast_apply (x : FVec Ideal S512x1 .f32) (p : Fin 512) (h : Fin 1024) :
    broadcastTo S512x1024 x broadcasts_S512x1_S512x1024 (ix2 p h) = x (ix2 p (0 : Fin 1)) :=
  Cert.LibColumnReads.broadcastTo_a1_ab_apply x broadcasts_S512x1_S512x1024 p h

/-- A row sum, set as a column, divided by the count word. -/
theorem meanCol_apply (x : FVec Ideal S512x1024 .f32) (p : Fin 512) :
    divf (shapeCast S512x1 (multiReduction (F := Ideal) .add [1] S512 x 0x00000000#32 reduces_S512x1024_S512 (.inl rfl) rfl) shapeCasts_S512_S512x1)
        (broadcast S512x1 (Scalar.ofBits .f32 0x44800000#32)) (ix2 p (0 : Fin 1))
      = Ideal.div (∑ h : Fin 1024, x (ix2 p h)) (Ideal.ofBits .f32 0x44800000#32) := by
  refine (divf_apply _ _ _).trans ?_
  rw [Cert.LibColumnReads.shapeCast_a_a1_apply _ shapeCasts_S512_S512x1 p (0 : Fin 1),
    Cert.LibRowReads.rowSum_apply x 0x00000000#32 reduces_S512x1024_S512 (.inl rfl) rfl p]
  rfl

/-- The normalisation of a block at (p, h) is Spec's `ln` of row p at h. -/
theorem rsqrt_apply {s : Shape} {φ : FTy} (v : FVec Ideal s φ) (i : s.Idx) : rsqrt v i = Ideal.rsqrt (v i) := rfl

/-- The normalisation of a block at (p, h) is Spec's `ln` of row p at h. -/
theorem lnV_apply (x : FVec Ideal S512x1024 .f32) (g b : Vec Ideal S1024 .f32) (p : Fin 512) (h : Fin 1024) :
    lnV x g b (ix2 p h) = ln (fun h' => x (ix2 p h')) (fun h' => g (ix1 h')) (fun h' => b (ix1 h')) h := by
  unfold lnV ln lnVar lnMean
  simp only [addf_apply, mulf_apply, subf_apply, colBcast_apply, rsqrt_apply, broadcast_apply]
  rw [rowBcast_apply g p h, rowBcast_apply b p h, meanCol_apply x p, meanCol_apply _ p]
  have e : ∀ h' : Fin 1024,
      mulf (subf x (broadcastTo S512x1024 (divf (shapeCast S512x1 (multiReduction (F := Ideal) .add [1] S512 x 0x00000000#32 reduces_S512x1024_S512 (.inl rfl) rfl) shapeCasts_S512_S512x1) (broadcast S512x1 (Scalar.ofBits .f32 0x44800000#32))) broadcasts_S512x1_S512x1024))
        (subf x (broadcastTo S512x1024 (divf (shapeCast S512x1 (multiReduction (F := Ideal) .add [1] S512 x 0x00000000#32 reduces_S512x1024_S512 (.inl rfl) rfl) shapeCasts_S512_S512x1) (broadcast S512x1 (Scalar.ofBits .f32 0x44800000#32))) broadcasts_S512x1_S512x1024)) (ix2 p h')
      = (x (ix2 p h') - Ideal.div (∑ k : Fin 1024, x (ix2 p k)) (Ideal.ofBits .f32 0x44800000#32))
        * (x (ix2 p h') - Ideal.div (∑ k : Fin 1024, x (ix2 p k)) (Ideal.ofBits .f32 0x44800000#32)) := fun h' => by
    rw [mulf_apply, subf_apply, colBcast_apply, meanCol_apply x p]
  rw [Finset.sum_congr rfl fun h' _ => e h']
  rfl

end Cert.KernelIdeal.Blk
end
-- ==== Proof.BlockValue.lean ====
/-
  A finished block, entry by entry, as Spec's tiled row.

  The block stored at a kv = 1 point is the finishing formula over the running buffers after two tiles: the first
  tile met them at -∞, 0 and 0. Entry (p, h) is therefore `ln` of the row whose feature h' is
  (∑ k, context k · Wc k h') + (∑ k, q p k · Wq k h') + bias h', the context being Spec's `ctxTiled` of query row p and
  the two tiles.
-/
import proofs.«100237_j17497696764367_2_alg».proof.Proof.FinishRead

noncomputable section

open Idealize.ShloMosaic Idealize.ShloMosaic.ValueIdx

namespace Cert.KernelIdeal.Blk

open Cert.KernelIdeal Cert.KernelIdeal.Gen Cert.Attn

/-- The projection at (p, h): the two contractions and the bias. -/
theorem projV_apply (c : FVec Ideal S512x1024 .bf16) (acc : Vec Ideal S512x1024 .f32) (l : Vec Ideal S512x1 .f32)
    (wc wq : Vec Ideal S1024x1024 .bf16) (bias : Vec Ideal S1024 .f32) (p : Fin 512) (h : Fin 1024) :
    projV c acc l wc wq bias (ix2 p h)
      = ((∑ k : Fin 1024, Ideal.div (acc (ix2 p k)) (l (ix2 p (0 : Fin 1))) * wc (ix2 k h))
          + ∑ k : Fin 1024, c (ix2 p k) * wq (ix2 k h)) + bias (ix1 h) := by
  unfold projV
  rw [shapeCast_self, shapeCast_self]
  refine (addf_apply _ _ _).trans ?_
  rw [rowBcast_apply]
  refine congrArg₂ (fun a b : EReal => a + b) ?_ rfl
  refine (addf_apply _ _ _).trans ?_
  refine congrArg₂ (fun a b : EReal => a + b) ?_ ?_
  · refine (Cert.Lib.PlainDot.matmul_zero_apply 512 1024 1024 none
      (truncf .bf16 (divf acc (broadcastTo S512x1024 l broadcasts_S512x1_S512x1024)) bitsLt_bf16_f32) wc (ix2 p h)).trans ?_
    exact Finset.sum_congr rfl fun k _ => by
      show Ideal.div (acc (ix2 p k)) (broadcastTo S512x1024 l broadcasts_S512x1_S512x1024 (ix2 p k)) * wc (ix2 k h) = _
      rw [colBcast_apply]
  · exact Cert.Lib.PlainDot.matmul_zero_apply 512 1024 1024 none c wq (ix2 p h)

/-- The initial running maximum: -∞ everywhere. -/
theorem pay5_apply (p : Fin 512) (u : Fin 1) : k0_pay5 (F := Ideal) (ix2 p u) = (⊥ : EReal) := by
  unfold k0_pay5
  rw [shapeCast_self]
  exact ofBits_ninf

/-- The initial running normaliser: 0 everywhere. -/
theorem pay6_apply (p : Fin 512) (u : Fin 1) : k0_pay6 (F := Ideal) (ix2 p u) = (0 : EReal) := by
  unfold k0_pay6
  rw [shapeCast_self]
  exact Ideal.ofBits_zero_f32

/-- The initial running weighted sum: 0 everywhere. -/
theorem pay7_apply (p : Fin 512) (d : Fin 1024) : k0_pay7 (F := Ideal) (ix2 p d) = (0 : EReal) := by
  unfold k0_pay7
  rw [shapeCast_self]
  exact Ideal.ofBits_zero_f32

/-- The running maximum after the first tile. -/
def mA (q : Vec Ideal S1x512x1024 .f32) (v0 : Vec Ideal S1x1024x1024 .bf16) : Vec Ideal S512x1 .f32 :=
  k0_pay2 (F := Ideal) (k0_pay11 q v0 (k0_pay5 (F := Ideal)))
/-- The running normaliser after the first tile. -/
def lA (q : Vec Ideal S1x512x1024 .f32) (v0 : Vec Ideal S1x1024x1024 .bf16) : Vec Ideal S512x1 .f32 :=
  k0_pay14 (F := Ideal) q v0 (k0_pay5 (F := Ideal)) (k0_pay5 (F := Ideal)) (k0_pay6 (F := Ideal))
/-- The running weighted sum after the first tile. -/
def aA (q : Vec Ideal S1x512x1024 .f32) (v0 : Vec Ideal S1x1024x1024 .bf16) : Vec Ideal S512x1024 .f32 :=
  k0_pay1 (F := Ideal) (k0_pay15 q v0 (k0_pay5 (F := Ideal)) (k0_pay5 (F := Ideal)) (k0_pay7 (F := Ideal)))

theorem mA_apply (q : Vec Ideal S1x512x1024 .f32) (v0 : Vec Ideal S1x1024x1024 .bf16) (p : Fin 512) (u : Fin 1) :
    mA q v0 (ix2 p u) = tMax ⊥ (qrow q p) (vrows v0) := by
  unfold mA k0_pay2
  rw [shapeCast_self, pay11_apply, pay5_apply]

theorem lA_apply (q : Vec Ideal S1x512x1024 .f32) (v0 : Vec Ideal S1x1024x1024 .bf16) (p : Fin 512) :
    lA q v0 (ix2 p (0 : Fin 1)) = tL ⊥ 0 (qrow q p) (vrows v0) := by
  unfold lA
  rw [pay14_apply, pay5_apply, pay6_apply]

theorem aA_apply (q : Vec Ideal S1x512x1024 .f32) (v0 : Vec Ideal S1x1024x1024 .bf16) (p : Fin 512) (d : Fin 1024) :
    aA q v0 (ix2 p d) = tAcc ⊥ (fun _ => 0) (qrow q p) (vrows v0) d := by
  unfold aA k0_pay1
  rw [shapeCast_self, pay15_apply, pay5_apply]
  exact congrArg (fun f => tAcc ⊥ f (qrow q p) (vrows v0) d) (funext fun d' => pay7_apply p d')

/-- The block a kv = 1 point stores, from the query block `q`, the two key tiles, the two projection matrices and the
    three feature rows. -/
def blockOut (qa q : Vec Ideal S1x512x1024 .f32) (v0 v1 : Vec Ideal S1x1024x1024 .bf16) (wc wq : Vec Ideal S1024x1024 .bf16)
    (bias g b : Vec Ideal S1024 .f32) : Vec Ideal S1x512x1024 .f32 :=
  k0_pay3 (F := Ideal) (k0_pay4 (k0_pay8 q) (k0_pay1 (k0_pay15 q v1 (mA qa v0) (mA qa v0) (aA qa v0)))
    (k0_pay14 q v1 (mA qa v0) (mA qa v0) (lA qa v0)) wc wq bias g b)

/-- The finishing formula over running buffers that ARE the first tile's leavings is the block. -/
theorem blockOut_congr (qa q : Vec Ideal S1x512x1024 .f32) (v0 v1 : Vec Ideal S1x1024x1024 .bf16) (wc wq : Vec Ideal S1024x1024 .bf16)
    (bias g b : Vec Ideal S1024 .f32) (xs0 xs1 : Vec Ideal S512x1 .f32) (xs2 : Vec Ideal S512x1024 .f32)
    (e0 : xs0 = mA qa v0) (e1 : xs1 = lA qa v0) (e2 : xs2 = aA qa v0) :
    k0_pay3 (F := Ideal) (k0_pay4 (k0_pay8 q) (k0_pay1 (k0_pay15 q v1 xs0 xs0 xs2)) (k0_pay14 q v1 xs0 xs0 xs1) wc wq bias g b)
      = blockOut qa q v0 v1 wc wq bias g b := by
  subst e0 e1 e2; rfl

/-- The context row the finishing step divides out is Spec's tiled context. -/
theorem ctx_apply (q : Vec Ideal S1x512x1024 .f32) (v0 v1 : Vec Ideal S1x1024x1024 .bf16) (p : Fin 512) (k : Fin 1024) :
    Ideal.div (k0_pay1 (F := Ideal) (k0_pay15 q v1 (mA q v0) (mA q v0) (aA q v0)) (ix2 p k))
        (k0_pay14 (F := Ideal) q v1 (mA q v0) (mA q v0) (lA q v0) (ix2 p (0 : Fin 1)))
      = ctxTiled (qrow q p) (vrows v0) (vrows v1) k := by
  unfold ctxTiled k0_pay1
  rw [shapeCast_self, pay15_apply, pay14_apply, mA_apply, lA_apply]
  exact congrArg (fun f => Ideal.div (tAcc (tMax ⊥ (qrow q p) (vrows v0)) f (qrow q p) (vrows v1) k) _)
    (funext fun d' => aA_apply q v0 p d')

/-- Entry (p, h) of the stored block. -/
theorem blockOut_apply (qa q : Vec Ideal S1x512x1024 .f32) (v0 v1 : Vec Ideal S1x1024x1024 .bf16) (wc wq : Vec Ideal S1024x1024 .bf16)
    (bias g b : Vec Ideal S1024 .f32) (hqa : qa = q) (u : Fin 1) (p : Fin 512) (h : Fin 1024) :
    blockOut qa q v0 v1 wc wq bias g b (ix3 u p h)
      = ln (fun h' => ((∑ k : Fin 1024, ctxTiled (qrow q p) (vrows v0) (vrows v1) k * wc (ix2 k h'))
              + ∑ k : Fin 1024, qrow q p k * wq (ix2 k h')) + bias (ix1 h'))
          (fun h' => g (ix1 h')) (fun h' => b (ix1 h')) h := by
  subst hqa
  unfold blockOut k0_pay3
  rw [shapeCast_ab_1ab_apply _ shapeCasts_S512x1024_S1x512x1024 u p h, pay4_eq, lnV_apply]
  refine congrArg (fun f => ln f (fun h' => g (ix1 h')) (fun h' => b (ix1 h')) h) (funext fun h' => ?_)
  rw [projV_apply]
  refine congrArg₂ (fun a b : EReal => a + b) (congrArg₂ (fun a b : EReal => a + b) ?_ ?_) rfl
  · exact Finset.sum_congr rfl fun k _ => by rw [ctx_apply]
  · exact Finset.sum_congr rfl fun k _ => by rw [pay8_apply]

end Cert.KernelIdeal.Blk
end
-- ==== Proof.BlockIdx.lean ====
/-
  Where the windows' blocks sit in their arrays.

  Grid point t of the 8 × 4 × 2 grid is batch b = t / 8, query tile (t / 2) % 4, key tile t % 2. The query and result
  windows take rows [512·tile, 512·tile + 512) of batch b whatever the key tile; the value window takes rows
  [1024·kv, 1024·kv + 1024) of batch b; the other windows take their whole arrays. The arrays the host prepared before
  the call are the value array itself (a change of format only), and the two halves of W's columns, transposed.
-/
import proofs.«100237_j17497696764367_2_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blk

open Cert.KernelIdeal Cert.KernelIdeal.Gen

variable (m : (ℓ : Loc nD τ sig) → Buf (Elt Ideal) ℓ)

/-- The printed index maps, decided once over the 64 grid points. -/
theorem idx_facts : ∀ t : Fin cfg0.N,
    win0_0.index t (0 : Fin 3) = t.val / 8 ∧ win0_0.index t (1 : Fin 3) = t.val / 2 % 4 ∧ win0_0.index t (2 : Fin 3) = 0
    ∧ win0_1.index t (0 : Fin 3) = t.val / 8 ∧ win0_1.index t (1 : Fin 3) = t.val % 2 ∧ win0_1.index t (2 : Fin 3) = 0
    ∧ win0_7.index t (0 : Fin 3) = t.val / 8 ∧ win0_7.index t (1 : Fin 3) = t.val / 2 % 4 ∧ win0_7.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

theorem N64 : cfg0.N = 64 := N_0

/-- The value array as the call finds it: the argument, its format changed. -/
theorem V_v6 (c : Dev nD) :
    (V m c main_v6 : S8x2048x1024.Idx → EReal) = truncf (F := Ideal) .bf16 (m ((c : Thread nD τ).loc main_arg1)) bitsLt_bf16_f32 := by
  dsimp only [Gen.V, Gen.hostOps0]; after_results

/-- The first projection matrix as the call finds it: columns [0, 1024) of W, transposed. -/
theorem V_v3 (c : Dev nD) :
    (V m c main_v3 : S1024x1024.Idx → EReal) = truncf (F := Ideal) .bf16 (transpose S1024x1024 [1, 0]
      (extractStridedSlice S1024x1024 ![0, 0] (m ((c : Thread nD τ).loc main_arg2)) slices_S1024x2048_S1024x1024_0_0)
      transposes_S1024x1024_S1024x1024_1_0) bitsLt_bf16_f32 := by
  dsimp only [Gen.V, Gen.hostOps0]; after_results

/-- The second projection matrix as the call finds it: columns [1024, 2048) of W, transposed. -/
theorem V_v5 (c : Dev nD) :
    (V m c main_v5 : S1024x1024.Idx → EReal) = truncf (F := Ideal) .bf16 (transpose S1024x1024 [1, 0]
      (extractStridedSlice S1024x1024 ![0, 1024] (m ((c : Thread nD τ).loc main_arg2)) slices_S1024x2048_S1024x1024_0_1024)
      transposes_S1024x1024_S1024x1024_1_0) bitsLt_bf16_f32 := by
  dsimp only [Gen.V, Gen.hostOps0]; after_results

end Cert.KernelIdeal.Blk
end
-- ==== Proof.BlockReads.lean ====
/-
  The windows' blocks, entry by entry, as entries of the six argument arrays.

  At grid point t (batch b = t / 8, query tile (t / 2) % 4, key tile t % 2): the query block's row p is query row
  512·tile + p of batch b; the value block's row n is value row 1024·(t % 2) + n of batch b; entry (k, h) of the first
  projection block is W (h, k) and of the second W (h, 1024 + k); the three feature rows are themselves.
-/
import proofs.«100237_j17497696764367_2_alg».proof.Proof.BlockIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blk

open Cert.KernelIdeal Cert.KernelIdeal.Gen

variable (m : (ℓ : Loc nD τ sig) → Buf (Elt Ideal) ℓ)

/-- The query block. -/
theorem iblk0_apply (c : Dev nD) (t : Fin cfg0.N) (u : Fin 1) (p : Fin 512) (d : Fin 1024) (b : Fin 8) (r : Fin 2048)
    (hb : b.val = t.val / 8) (hr : r.val = t.val / 2 % 4 * 512 + p.val) :
    (iblk m c 0 t : Vec Ideal S1x512x1024 .f32) (ix3 u p d) = m ((c : Thread nD τ).loc main_arg0) (ix3 b r d) := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * u.val = b.val; have := u.isLt; omega
  | ⟨1, _⟩ => show win0_0.index t (1 : Fin 3) * 512 + 1 * p.val = r.val; omega
  | ⟨2, _⟩ => show win0_0.index t (2 : Fin 3) * 1024 + 1 * d.val = d.val; omega

/-- The value block. -/
theorem iblk1_apply (c : Dev nD) (t : Fin cfg0.N) (u : Fin 1) (n : Fin 1024) (d : Fin 1024) (b : Fin 8) (r : Fin 2048)
    (hb : b.val = t.val / 8) (hr : r.val = t.val % 2 * 1024 + n.val) :
    (iblk m c 1 t : Vec Ideal S1x1024x1024 .bf16) (ix3 u n d) = m ((c : Thread nD τ).loc main_arg1) (ix3 b r d) := by
  obtain ⟨-, -, -, e0, e1, e2, -⟩ := idx_facts t
  unfold iblk
  rw [View.read_apply]
  show (V m c main_v6 : S8x2048x1024.Idx → EReal) _ = _
  rw [V_v6 m c]
  show m ((c : Thread nD τ).loc main_arg1) _ = _
  congr 1
  funext a; apply Fin.ext
  match a with
  | ⟨0, _⟩ => show win0_1.index t (0 : Fin 3) * 1 + 1 * u.val = b.val; have := u.isLt; omega
  | ⟨1, _⟩ => show win0_1.index t (1 : Fin 3) * 1024 + 1 * n.val = r.val; omega
  | ⟨2, _⟩ => show win0_1.index t (2 : Fin 3) * 1024 + 1 * d.val = d.val; omega

/-- The first projection block: entry (k, h) is W (h, k). -/
theorem iblk2_apply (c : Dev nD) (t : Fin cfg0.N) (k h : Fin 1024) (k' : Fin 2048) (hk : k'.val = k.val) :
    (iblk m c 2 t : Vec Ideal S1024x1024 .bf16) (ix2 k h) = m ((c : Thread nD τ).loc main_arg2) (ix2 h k') := by
  obtain ⟨-, -, -, -, -, -, -, -, -, e0, e1, -⟩ := idx_facts t
  unfold iblk
  rw [View.read_apply]
  have he : ((cfg0.win 2).blk t).view.emb (ix2 k h) = (ix2 k h : S1024x1024.Idx) := funext fun a => Fin.ext (by
    match a with
    | ⟨0, _⟩ => show win0_2.index t (0 : Fin 2) * 1024 + 1 * k.val = k.val; omega
    | ⟨1, _⟩ => show win0_2.index t (1 : Fin 2) * 1024 + 1 * h.val = h.val; omega)
  rw [he]
  show (V m c main_v3 : S1024x1024.Idx → EReal) _ = _
  rw [V_v3 m c]
  change transpose S1024x1024 [1, 0] (extractStridedSlice S1024x1024 ![0, 0] (m ((c : Thread nD τ).loc main_arg2)) slices_S1024x2048_S1024x1024_0_0) transposes_S1024x1024_S1024x1024_1_0 (ix2 k h) = _
  refine (transpose_ix2_apply _ transposes_S1024x1024_S1024x1024_1_0 k h).trans ?_
  exact slice2_axis1_apply 0 _ slices_S1024x2048_S1024x1024_0_0 h k k' (by omega)

/-- The second projection block: entry (k, h) is W (h, 1024 + k). -/
theorem iblk3_apply (c : Dev nD) (t : Fin cfg0.N) (k h : Fin 1024) (k' : Fin 2048) (hk : k'.val = 1024 + k.val) :
    (iblk m c 3 t : Vec Ideal S1024x1024 .bf16) (ix2 k h) = m ((c : Thread nD τ).loc main_arg2) (ix2 h k') := by
  obtain ⟨-, -, -, -, -, -, -, -, -, -, -, e0, e1, -⟩ := idx_facts t
  unfold iblk
  rw [View.read_apply]
  have he : ((cfg0.win 3).blk t).view.emb (ix2 k h) = (ix2 k h : S1024x1024.Idx) := funext fun a => Fin.ext (by
    match a with
    | ⟨0, _⟩ => show win0_3.index t (0 : Fin 2) * 1024 + 1 * k.val = k.val; omega
    | ⟨1, _⟩ => show win0_3.index t (1 : Fin 2) * 1024 + 1 * h.val = h.val; omega)
  rw [he]
  show (V m c main_v5 : S1024x1024.Idx → EReal) _ = _
  rw [V_v5 m c]
  change transpose S1024x1024 [1, 0] (extractStridedSlice S1024x1024 ![0, 1024] (m ((c : Thread nD τ).loc main_arg2)) slices_S1024x2048_S1024x1024_0_1024) transposes_S1024x1024_S1024x1024_1_0 (ix2 k h) = _
  refine (transpose_ix2_apply _ transposes_S1024x1024_S1024x1024_1_0 k h).trans ?_
  exact slice2_axis1_apply 1024 _ slices_S1024x2048_S1024x1024_0_1024 h k k' hk

/-- The bias row. -/
theorem iblk4_apply (c : Dev nD) (t : Fin cfg0.N) (h : Fin 1024) :
    (iblk m c 4 t : Vec Ideal S1024 .f32) (ix1 h) = m ((c : Thread nD τ).loc main_arg3) (ix1 h) := by
  obtain ⟨-, -, -, -, -, -, -, -, -, -, -, -, -, e0, -⟩ := idx_facts t
  unfold iblk
  rw [View.read_apply]
  show V m c main_arg3 _ = _
  rw [V_main_arg3]
  congr 1
  funext a; apply Fin.ext
  match a with
  | ⟨0, _⟩ => show win0_4.index t (0 : Fin 1) * 1024 + 1 * h.val = h.val; omega

/-- The gamma row. -/
theorem iblk5_apply (c : Dev nD) (t : Fin cfg0.N) (h : Fin 1024) :
    (iblk m c 5 t : Vec Ideal S1024 .f32) (ix1 h) = m ((c : Thread nD τ).loc main_arg4) (ix1 h) := by
  obtain ⟨-, -, -, -, -, -, -, -, -, -, -, -, -, -, e0, -⟩ := idx_facts t
  unfold iblk
  rw [View.read_apply]
  show V m c main_arg4 _ = _
  rw [V_main_arg4]
  congr 1
  funext a; apply Fin.ext
  match a with
  | ⟨0, _⟩ => show win0_5.index t (0 : Fin 1) * 1024 + 1 * h.val = h.val; omega

/-- The beta row. -/
theorem iblk6_apply (c : Dev nD) (t : Fin cfg0.N) (h : Fin 1024) :
    (iblk m c 6 t : Vec Ideal S1024 .f32) (ix1 h) = m ((c : Thread nD τ).loc main_arg5) (ix1 h) := by
  obtain ⟨-, -, -, -, -, -, -, -, -, -, -, -, -, -, -, e0⟩ := idx_facts t
  unfold iblk
  rw [View.read_apply]
  show V m c main_arg5 _ = _
  rw [V_main_arg5]
  congr 1
  funext a; apply Fin.ext
  match a with
  | ⟨0, _⟩ => show win0_6.index t (0 : Fin 1) * 1024 + 1 * h.val = h.val; omega

/-- The query block does not move between the two key tiles of one query tile. -/
theorem iblk0_prev (c : Dev nD) (t t' : Fin cfg0.N) (ht : t.val % 2 = 1) (ht' : t'.val = t.val - 1) :
    (iblk m c 0 t' : Vec Ideal S1x512x1024 .f32) = iblk m c 0 t := by
  funext y
  obtain ⟨u, p, d, rfl⟩ : ∃ (u : Fin 1) (p : Fin 512) (d : Fin 1024), y = ix3 u p d := ⟨y 0, y 1, y 2, eq_ix3 y⟩
  have hN : t.val < 64 := lt_of_lt_of_eq t.isLt N64
  have hp := p.isLt
  rw [iblk0_apply m c t' u p d ⟨t.val / 8, by omega⟩ ⟨t.val / 2 % 4 * 512 + p.val, by omega⟩ (by show t.val / 8 = t'.val / 8; omega) (by show t.val / 2 % 4 * 512 + p.val = t'.val / 2 % 4 * 512 + p.val; omega),
    iblk0_apply m c t u p d ⟨t.val / 8, by omega⟩ ⟨t.val / 2 % 4 * 512 + p.val, by omega⟩ rfl rfl]

end Cert.KernelIdeal.Blk
end
-- ==== Proof.Pieces.lean ====
/-
  What one grid point's body leaves behind, as plain terms of what it loaded.

  At a point with kv = 0 the body first stores -∞, 0 and 0 into the running maximum, normaliser and weighted sum, then
  updates them from the tile it sees; what the three scratch buffers hold afterwards are the update formulas applied to
  those initial values. At a point with kv = 1 the body updates them from what the point before left, and then stores
  the finished block: the final division, the projection and the normalisation applied to the updated buffers.
-/
import proofs.«100237_j17497696764367_2_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- After a kv = 0 point the running maximum is the update of -∞ by the tile. -/
theorem sA0 (c : Dev nD) (i : grid0.Coords) (arg3 : Memref sig .tc .vmem S1x512x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1024 .f32) (harg13 : arg13.IsWhole) (hc0 : cond0_0 i) (hc1 : ¬cond0_1 i) (x0 : Vec F S1x512x1024 .f32) (x1 : Vec F S1x1024x1024 .bf16) (x2 : Vec F S1024x1024 .bf16) (x3 : Vec F S1024x1024 .bf16) (x4 : Vec F S1024 .f32) (x5 : Vec F S1024 .f32) (x6 : Vec F S1024 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay2 (k0_pay11 x0 x1 k0_pay5) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x512x1024) hz3, View.ld_unit_zero (S := S1x1024x1024) hz3, View.ld_unit_zero (S := S1024x1024) hz2, View.ld_unit_zero (S := S512x1) hz2, View.ld_unit_zero (S := S512x1024) hz2, View.ld_unit_zero (S := S1024) hz1,
    View.readCov_unit_zero (S := S512x1) _ hz2, View.readCov_unit_zero (S := S512x1024) _ hz2]

/-- After a kv = 0 point the running normaliser is the update of 0 (under the maximum -∞) by the tile. -/
theorem sA1 (c : Dev nD) (i : grid0.Coords) (arg3 : Memref sig .tc .vmem S1x512x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1024 .f32) (harg13 : arg13.IsWhole) (hc0 : cond0_0 i) (hc1 : ¬cond0_1 i) (x0 : Vec F S1x512x1024 .f32) (x1 : Vec F S1x1024x1024 .bf16) (x2 : Vec F S1024x1024 .bf16) (x3 : Vec F S1024x1024 .bf16) (x4 : Vec F S1024 .f32) (x5 : Vec F S1024 .f32) (x6 : Vec F S1024 .f32) :
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay14 x0 x1 k0_pay5 k0_pay5 k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x512x1024) hz3, View.ld_unit_zero (S := S1x1024x1024) hz3, View.ld_unit_zero (S := S1024x1024) hz2, View.ld_unit_zero (S := S512x1) hz2, View.ld_unit_zero (S := S512x1024) hz2, View.ld_unit_zero (S := S1024) hz1,
    View.readCov_unit_zero (S := S512x1) _ hz2, View.readCov_unit_zero (S := S512x1024) _ hz2]

/-- After a kv = 0 point the running weighted sum is the update of 0 (under the maximum -∞) by the tile. -/
theorem sA2 (c : Dev nD) (i : grid0.Coords) (arg3 : Memref sig .tc .vmem S1x512x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1024 .f32) (harg13 : arg13.IsWhole) (hc0 : cond0_0 i) (hc1 : ¬cond0_1 i) (x0 : Vec F S1x512x1024 .f32) (x1 : Vec F S1x1024x1024 .bf16) (x2 : Vec F S1024x1024 .bf16) (x3 : Vec F S1024x1024 .bf16) (x4 : Vec F S1024 .f32) (x5 : Vec F S1024 .f32) (x6 : Vec F S1024 .f32) :
    sout0_A_2 c i arg3 harg3 arg4 harg4 arg5 harg5 arg6 harg6 arg7 harg7 arg8 harg8 arg9 harg9 arg10 harg10 arg11 harg11 arg12 harg12 arg13 harg13 hc0 hc1 x0 x1 x2 x3 x4 x5 x6 = k0_pay1 (k0_pay15 x0 x1 k0_pay5 k0_pay5 k0_pay7) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S512x1024) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x512x1024) hz3, View.ld_unit_zero (S := S1x1024x1024) hz3, View.ld_unit_zero (S := S1024x1024) hz2, View.ld_unit_zero (S := S512x1) hz2, View.ld_unit_zero (S := S512x1024) hz2, View.ld_unit_zero (S := S1024) hz1,
    View.readCov_unit_zero (S := S512x1) _ hz2, View.readCov_unit_zero (S := S512x1024) _ hz2]

/-- At a kv = 1 point the stored block is the finishing formula over the buffers updated from what the point before
    left (maximum `xs0`, normaliser `xs1`, weighted sum `xs2`). -/
theorem oB7 (c : Dev nD) (i : grid0.Coords) (arg3 : Memref sig .tc .vmem S1x512x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1x512x1024 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1024 .f32) (harg13 : arg13.IsWhole) (hc0 : ¬cond0_0 i) (hc1 : cond0_1 i) (x0 : Vec F S1x512x1024 .f32) (x1 : Vec F S1x1024x1024 .bf16) (x2 : Vec F S1024x1024 .bf16) (x3 : Vec F S1024x1024 .bf16) (x4 : Vec F S1024 .f32) (x5 : Vec F S1024 .f32) (x6 : Vec F S1024 .f32) (xs0 : Vec F S512x1 .f32) (xs1 : Vec F S512x1 .f32) (xs2 : Vec F S512x1024 .f32) :
    out0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2
      = k0_pay3 (k0_pay4 (k0_pay8 x0) (k0_pay1 (k0_pay15 x0 x1 xs0 xs0 xs2)) (k0_pay14 x0 x1 xs0 xs0 xs1) x2 x3 x4 x5 x6) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x512x1024) hz3, View.ld_unit_zero (S := S1x1024x1024) hz3, View.ld_unit_zero (S := S1024x1024) hz2, View.ld_unit_zero (S := S512x1) hz2, View.ld_unit_zero (S := S512x1024) hz2, View.ld_unit_zero (S := S1024) hz1,
    View.readCov_unit_zero (S := S512x1) _ hz2, View.readCov_unit_zero (S := S512x1024) _ hz2]

end Cert.KernelIdeal.Pieces
end
-- ==== Proof.SoftmaxTiles.lean ====
/-
  Two arrangements of the attention block are the same function of real inputs.

  The online softmax keeps, after each tile of keys, the largest score seen so far `m`, the sum `l` of
  `exp (score - m)` over the keys seen so far, and the sum `acc` of `exp (score - m) · row`. When the largest
  score moves from `m` to `M`, multiplying by `exp (m - M)` turns every `exp (s - m)` into `exp (s - M)`, so after
  the last tile `l` and `acc` are exactly the sums the one-pass softmax forms over all keys under the overall
  largest score; the final division by `l` is the one-pass division by the normaliser, taken once outside the
  sum instead of once per key. The start `m = -∞` costs nothing: `exp (-∞ - m) = 0` multiplies a zero past.
  All of this needs the scores to be real (no infinities), which they are when query and keys are real, and at
  least one key per tile, so that the largest score is a real and the normaliser is positive.

  The projection of (context, query) by a row of 2·D weights is one sum or two sums of D: the same sum.
-/
import proofs.«100237_j17497696764367_2_alg».proof.Proof.Spec
import Mathlib.Data.Finset.Lattice.Fold
import Mathlib.Data.Finset.Fold

open scoped BigOperators

noncomputable section

namespace Cert.Attn

open Idealize.ShloMosaic

variable {D T H : ℕ}

/-! ## The projection: one contraction of 2·D columns is two contractions of D -/

theorem projSplit_eq_projRef (c q : Fin D → EReal) (W : Fin H → Fin (D + D) → EReal)
    (bias : Fin H → EReal) : projSplit c q W bias = projRef c q W bias := by
  funext h
  simp only [projSplit, projRef, Fin.sum_univ_add, Fin.append_left, Fin.append_right]

namespace Tiles

/-! ## Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the larger of two. -/
theorem coe_max (a b : ℝ) : max (a : EReal) (b : EReal) = ((max a b : ℝ) : EReal) :=
  (EReal.coe_strictMono.monotone.map_max).symm

/-- The score of a real query against a real key row is a real. -/
theorem dot_coe (q k : Fin D → ℝ) :
    dot (fun d => (q d : EReal)) (fun d => (k d : EReal)) = ((∑ d, q d * k d : ℝ) : EReal) := by
  simp only [dot, coe_sum, EReal.coe_mul]

/-- The largest of a nonempty family of real scores is the real maximum. -/
theorem smax_coe (hT : 0 < T) (s : Fin T → ℝ) :
    smax (fun n => (s n : EReal))
      = ((Finset.univ.sup' ⟨⟨0, hT⟩, Finset.mem_univ _⟩ s : ℝ) : EReal) := by
  unfold smax
  apply le_antisymm
  · rw [Finset.fold_max_le]
    exact ⟨bot_le, fun x hx => EReal.coe_le_coe_iff.2 (Finset.le_sup' s hx)⟩
  · obtain ⟨i, hi, h⟩ := Finset.exists_mem_eq_sup' ⟨⟨0, hT⟩, Finset.mem_univ _⟩ s
    rw [h, Finset.le_fold_max]
    exact Or.inr ⟨i, hi, le_rfl⟩

/-- The largest score over two families laid end to end is the larger of the two largest. -/
theorem smax_append {A B : ℕ} (S0 : Fin A → EReal) (S1 : Fin B → EReal) :
    smax (Fin.append S0 S1) = max (smax S0) (smax S1) := by
  unfold smax
  apply le_antisymm
  · rw [Finset.fold_max_le]
    refine ⟨bot_le, fun x _ => ?_⟩
    refine Fin.addCases (fun i => ?_) (fun i => ?_) x
    · rw [Fin.append_left]
      exact le_max_of_le_left ((Finset.le_fold_max _).2 (Or.inr ⟨i, Finset.mem_univ _, le_rfl⟩))
    · rw [Fin.append_right]
      exact le_max_of_le_right ((Finset.le_fold_max _).2 (Or.inr ⟨i, Finset.mem_univ _, le_rfl⟩))
  · apply max_le
    · rw [Finset.fold_max_le]
      refine ⟨bot_le, fun i _ => (Finset.le_fold_max _).2 (Or.inr ⟨Fin.castAdd B i, Finset.mem_univ _, ?_⟩)⟩
      rw [Fin.append_left]
    · rw [Finset.fold_max_le]
      refine ⟨bot_le, fun i _ => (Finset.le_fold_max _).2 (Or.inr ⟨Fin.natAdd A i, Finset.mem_univ _, ?_⟩)⟩
      rw [Fin.append_right]

/-! ## Real query and real keys

From here the query and the keys are real numbers, seen in the extended reals through the inclusion. -/

/-- A real row, seen in the extended reals. -/
abbrev cv (q : Fin D → ℝ) : Fin D → EReal := fun d => (q d : EReal)

/-- A real tile of rows, seen in the extended reals. -/
abbrev cm (V : Fin T → Fin D → ℝ) : Fin T → Fin D → EReal := fun n d => (V n d : EReal)

/-- The real score of key row `n`. -/
def sc (q : Fin D → ℝ) (V : Fin T → Fin D → ℝ) (n : Fin T) : ℝ := ∑ d, q d * V n d

/-- The largest real score of a nonempty tile. -/
def mx (hT : 0 < T) (q : Fin D → ℝ) (V : Fin T → Fin D → ℝ) : ℝ :=
  Finset.univ.sup' ⟨⟨0, hT⟩, Finset.mem_univ _⟩ (sc q V)

theorem dot_cv (q : Fin D → ℝ) (V : Fin T → Fin D → ℝ) (n : Fin T) :
    dot (cv q) (cm V n) = (sc q V n : EReal) :=
  dot_coe q (V n)

theorem smax_scores (hT : 0 < T) (q : Fin D → ℝ) (V : Fin T → Fin D → ℝ) :
    smax (fun n => dot (cv q) (cm V n)) = (mx hT q V : EReal) := by
  simp only [dot_cv]
  exact smax_coe hT (sc q V)

/-! ### The first tile, from `m = -∞`, `l = 0`, `acc = 0` -/

theorem tMax_bot (hT : 0 < T) (q : Fin D → ℝ) (V : Fin T → Fin D → ℝ) :
    tMax ⊥ (cv q) (cm V) = (mx hT q V : EReal) := by
  rw [tMax, smax_scores hT, max_eq_right bot_le]

/-- Nothing was accumulated before the first tile, and `exp (-∞ - m) = 0` wipes the (zero) past. -/
theorem tL_bot (hT : 0 < T) (q : Fin D → ℝ) (V : Fin T → Fin D → ℝ) :
    tL ⊥ 0 (cv q) (cm V) = ((∑ n, Real.exp (sc q V n - mx hT q V) : ℝ) : EReal) := by
  simp only [tL, tScale, tW, tMax_bot hT, dot_cv, EReal.bot_sub, Ideal.exp_bot, zero_mul, zero_add,
    ← EReal.coe_sub, Ideal.exp_coe, ← coe_sum]

theorem tAcc_bot (hT : 0 < T) (q : Fin D → ℝ) (V : Fin T → Fin D → ℝ) (d : Fin D) :
    tAcc ⊥ (fun _ => 0) (cv q) (cm V) d
      = ((∑ n, Real.exp (sc q V n - mx hT q V) * V n d : ℝ) : EReal) := by
  simp only [tAcc, tScale, tW, tMax_bot hT, dot_cv, EReal.bot_sub, Ideal.exp_bot, zero_mul, zero_add,
    ← EReal.coe_sub, Ideal.exp_coe, ← EReal.coe_mul, ← coe_sum]

/-! ### A later tile, from a real running maximum, normaliser and weighted sum -/

theorem tMax_coe (hT : 0 < T) (q : Fin D → ℝ) (V : Fin T → Fin D → ℝ) (m : ℝ) :
    tMax (m : EReal) (cv q) (cm V) = ((max m (mx hT q V) : ℝ) : EReal) := by
  rw [tMax, smax_scores hT, coe_max]

theorem tL_coe (hT : 0 < T) (q : Fin D → ℝ) (V : Fin T → Fin D → ℝ) (m l : ℝ) :
    tL (m : EReal) (l : EReal) (cv q) (cm V)
      = ((Real.exp (m - max m (mx hT q V)) * l
          + ∑ n, Real.exp (sc q V n - max m (mx hT q V)) : ℝ) : EReal) := by
  simp only [tL, tScale, tW, tMax_coe hT, dot_cv, ← EReal.coe_sub, Ideal.exp_coe, ← EReal.coe_mul,
    ← coe_sum, ← EReal.coe_add]

theorem tAcc_coe (hT : 0 < T) (q : Fin D → ℝ) (V : Fin T → Fin D → ℝ) (m : ℝ) (a : Fin D → ℝ)
    (d : Fin D) :
    tAcc (m : EReal) (cv a) (cv q) (cm V) d
      = ((Real.exp (m - max m (mx hT q V)) * a d
          + ∑ n, Real.exp (sc q V n - max m (mx hT q V)) * V n d : ℝ) : EReal) := by
  simp only [tAcc, tScale, tW, tMax_coe hT, dot_cv, ← EReal.coe_sub, Ideal.exp_coe, ← EReal.coe_mul,
    ← coe_sum, ← EReal.coe_add]

/-! ### All keys at once, the keys being the two tiles laid end to end -/

/-- The scores over the 2·T keys are the two tiles' scores laid end to end. -/
theorem scores_append (q : Fin D → ℝ) (V0 V1 : Fin T → Fin D → ℝ) :
    (fun n => dot (cv q) (Fin.append (cm V0) (cm V1) n))
      = Fin.append (fun i => (sc q V0 i : EReal)) (fun i => (sc q V1 i : EReal)) := by
  funext n
  refine Fin.addCases (fun i => ?_) (fun i => ?_) n
  · rw [Fin.append_left, Fin.append_left, dot_cv]
  · rw [Fin.append_right, Fin.append_right, dot_cv]

/-- The largest score over all keys is the larger of the two tiles' largest scores. -/
theorem smax_all (hT : 0 < T) (q : Fin D → ℝ) (V0 V1 : Fin T → Fin D → ℝ) :
    smax (fun n => dot (cv q) (Fin.append (cm V0) (cm V1) n))
      = ((max (mx hT q V0) (mx hT q V1) : ℝ) : EReal) := by
  rw [scores_append, smax_append, smax_coe hT, smax_coe hT, coe_max]
  rfl

theorem wRef_left (hT : 0 < T) (q : Fin D → ℝ) (V0 V1 : Fin T → Fin D → ℝ) (i : Fin T) :
    wRef (cv q) (Fin.append (cm V0) (cm V1)) (Fin.castAdd T i)
      = ((Real.exp (sc q V0 i - max (mx hT q V0) (mx hT q V1)) : ℝ) : EReal) := by
  rw [wRef, smax_all hT, Fin.append_left, dot_cv, ← EReal.coe_sub, Ideal.exp_coe]

theorem wRef_right (hT : 0 < T) (q : Fin D → ℝ) (V0 V1 : Fin T → Fin D → ℝ) (i : Fin T) :
    wRef (cv q) (Fin.append (cm V0) (cm V1)) (Fin.natAdd T i)
      = ((Real.exp (sc q V1 i - max (mx hT q V0) (mx hT q V1)) : ℝ) : EReal) := by
  rw [wRef, smax_all hT, Fin.append_right, dot_cv, ← EReal.coe_sub, Ideal.exp_coe]

/-- The normaliser: the sum over all 2·T keys of `exp (score - largest score)`. -/
def Z (hT : 0 < T) (q : Fin D → ℝ) (V0 V1 : Fin T → Fin D → ℝ) : ℝ :=
  ∑ i, Real.exp (sc q V0 i - max (mx hT q V0) (mx hT q V1))
    + ∑ i, Real.exp (sc q V1 i - max (mx hT q V0) (mx hT q V1))

/-- A sum of exponentials over a nonempty family is positive. -/
theorem Z_pos (hT : 0 < T) (q : Fin D → ℝ) (V0 V1 : Fin T → Fin D → ℝ) : 0 < Z hT q V0 V1 :=
  add_pos_of_pos_of_nonneg
    (Finset.sum_pos (fun _ _ => Real.exp_pos _) ⟨⟨0, hT⟩, Finset.mem_univ _⟩)
    (Finset.sum_nonneg fun _ _ => (Real.exp_pos _).le)

theorem sum_wRef (hT : 0 < T) (q : Fin D → ℝ) (V0 V1 : Fin T → Fin D → ℝ) :
    ∑ n, wRef (cv q) (Fin.append (cm V0) (cm V1)) n = (Z hT q V0 V1 : EReal) := by
  rw [Fin.sum_univ_add]
  simp only [wRef_left hT, wRef_right hT, ← coe_sum, ← EReal.coe_add, Z]

/-- The context, all keys at once: each key's row weighted by `exp (score - largest) / normaliser`. -/
theorem ctxRef_coe (hT : 0 < T) (q : Fin D → ℝ) (V0 V1 : Fin T → Fin D → ℝ) (d : Fin D) :
    ctxRef (cv q) (Fin.append (cm V0) (cm V1)) d
      = ((∑ i, Real.exp (sc q V0 i - max (mx hT q V0) (mx hT q V1)) * (1 / Z hT q V0 V1) * V0 i d
          + ∑ i, Real.exp (sc q V1 i - max (mx hT q V0) (mx hT q V1)) * (1 / Z hT q V0 V1) * V1 i d
            : ℝ) : EReal) := by
  rw [ctxRef, sum_wRef hT]
  simp only [Ideal.div_coe (Z_pos hT q V0 V1).ne']
  rw [Fin.sum_univ_add]
  simp only [wRef_left hT, wRef_right hT, Fin.append_left, Fin.append_right, ← EReal.coe_mul,
    ← coe_sum, ← EReal.coe_add]

/-! ### The two arrangements agree -/

/-- Moving from the maximum `m` to the maximum `M`: `exp (m - M) · exp (s - m) = exp (s - M)`. -/
theorem exp_rescale (s m M : ℝ) : Real.exp (m - M) * Real.exp (s - m) = Real.exp (s - M) := by
  rw [← Real.exp_add]
  congr 1
  ring

theorem l_merge (m M : ℝ) (s : Fin T → ℝ) :
    Real.exp (m - M) * ∑ n, Real.exp (s n - m) = ∑ n, Real.exp (s n - M) := by
  rw [Finset.mul_sum]
  exact Finset.sum_congr rfl fun n _ => exp_rescale _ _ _

theorem acc_merge (m M : ℝ) (s v : Fin T → ℝ) :
    Real.exp (m - M) * ∑ n, Real.exp (s n - m) * v n = ∑ n, Real.exp (s n - M) * v n := by
  rw [Finset.mul_sum]
  refine Finset.sum_congr rfl fun n _ => ?_
  rw [← mul_assoc, exp_rescale]

/-- The context from two tiles equals the context from all keys at once, for real inputs. -/
theorem ctxTiled_coe (hT : 0 < T) (q : Fin D → ℝ) (V0 V1 : Fin T → Fin D → ℝ) (d : Fin D) :
    ctxTiled (cv q) (cm V0) (cm V1) d = ctxRef (cv q) (Fin.append (cm V0) (cm V1)) d := by
  have h0 : tAcc ⊥ (fun _ => 0) (cv q) (cm V0)
      = cv (fun d => ∑ n, Real.exp (sc q V0 n - mx hT q V0) * V0 n d) :=
    funext (tAcc_bot hT q V0)
  rw [ctxTiled, h0, tMax_bot hT, tL_bot hT, tAcc_coe hT, tL_coe hT, ctxRef_coe hT,
    l_merge, acc_merge (mx hT q V0) _ (sc q V0) (fun n => V0 n d)]
  rw [show (∑ n, Real.exp (sc q V0 n - max (mx hT q V0) (mx hT q V1))
        + ∑ n, Real.exp (sc q V1 n - max (mx hT q V0) (mx hT q V1))) = Z hT q V0 V1 from rfl,
    Ideal.div_coe (Z_pos hT q V0 V1).ne', ← EReal.coe_mul, EReal.coe_eq_coe_iff,
    add_mul, Finset.sum_mul, Finset.sum_mul]
  congr 1 <;> exact Finset.sum_congr rfl fun i _ => by ring

end Tiles

open Tiles

/-! ## The statements for extended-real inputs that happen to be real -/

theorem ctxTiled_eq_ctxRef (hT : 0 < T) (q : Fin D → EReal) (V0 V1 : Fin T → Fin D → EReal)
    (hq : ∀ d, ∃ r : ℝ, q d = (r : EReal)) (hV0 : ∀ n d, ∃ r : ℝ, V0 n d = (r : EReal))
    (hV1 : ∀ n d, ∃ r : ℝ, V1 n d = (r : EReal)) :
    ctxTiled q V0 V1 = ctxRef q (Fin.append V0 V1) := by
  choose q' hq' using hq
  choose V0' hV0' using hV0
  choose V1' hV1' using hV1
  obtain rfl : q = cv q' := funext hq'
  obtain rfl : V0 = cm V0' := funext fun n => funext (hV0' n)
  obtain rfl : V1 = cm V1' := funext fun n => funext (hV1' n)
  exact funext (ctxTiled_coe hT q' V0' V1')

theorem outTiled_eq_outRef (hT : 0 < T) (q : Fin D → EReal) (V0 V1 : Fin T → Fin D → EReal)
    (W : Fin H → Fin (D + D) → EReal) (bias g b : Fin H → EReal)
    (hq : ∀ d, ∃ r : ℝ, q d = (r : EReal)) (hV0 : ∀ n d, ∃ r : ℝ, V0 n d = (r : EReal))
    (hV1 : ∀ n d, ∃ r : ℝ, V1 n d = (r : EReal)) :
    outTiled q V0 V1 W bias g b = outRef q (Fin.append V0 V1) W bias g b := by
  rw [outTiled, outRef, projSplit_eq_projRef, ctxTiled_eq_ctxRef hT q V0 V1 hq hV0 hV1]

end Cert.Attn

end
-- ==== Proof.Whole.lean ====
/-
  The whole result array as one function of the six argument arrays.

  Entry (b, r, h) of the result is feature h of the normalised projected row (Spec: `outRef`) built from query row r
  of batch b, all 2048 value rows of batch b (keys and values alike), the weight matrix W (one row per output
  feature, 2048 columns: the first 1024 meet the context, the last 1024 the query), and the three feature vectors.
-/
import proofs.«100237_j17497696764367_2_alg».proof.Proof.Spec
import Idealize.ShloMosaic.Lib.ValueIdx

noncomputable section

namespace Cert.Attn

open Idealize.ShloMosaic Idealize.ShloMosaic.ValueIdx

/-- Row (b, r) of the result, as a function of the feature. -/
def Grow (Q Vv : (⟨3, ![8, 2048, 1024]⟩ : Shape).Idx → EReal) (W : (⟨2, ![1024, 2048]⟩ : Shape).Idx → EReal)
    (B Gm Be : (⟨1, ![1024]⟩ : Shape).Idx → EReal) (b : Fin 8) (r : Fin 2048) : Fin 1024 → EReal :=
  outRef (D := 1024) (N := 2048) (H := 1024) (fun d => Q (ix3 b r d)) (fun n d => Vv (ix3 b n d))
    (fun h k => W (ix2 h (Fin.cast (by norm_num) k))) (fun h => B (ix1 h)) (fun h => Gm (ix1 h)) (fun h => Be (ix1 h))

/-- The result array. -/
def G (Q Vv : (⟨3, ![8, 2048, 1024]⟩ : Shape).Idx → EReal) (W : (⟨2, ![1024, 2048]⟩ : Shape).Idx → EReal)
    (B Gm Be : (⟨1, ![1024]⟩ : Shape).Idx → EReal) (i : (⟨3, ![8, 2048, 1024]⟩ : Shape).Idx) : EReal :=
  Grow Q Vv W B Gm Be (i 0) (i 1) (i 2)

theorem G_ix3 (Q Vv : (⟨3, ![8, 2048, 1024]⟩ : Shape).Idx → EReal) (W : (⟨2, ![1024, 2048]⟩ : Shape).Idx → EReal)
    (B Gm Be : (⟨1, ![1024]⟩ : Shape).Idx → EReal) (b : Fin 8) (r : Fin 2048) (h : Fin 1024) :
    G Q Vv W B Gm Be (ix3 b r h) = Grow Q Vv W B Gm Be b r h := rfl

end Cert.Attn

end
-- ==== Proof.KernelValue.lean ====
/-
  The kernel's result array, as one function of the six argument arrays.

  Only the kv = 1 points write a block of the result back. Such a point finds, in the three running buffers, what the
  kv = 0 point just before it left: the tile update of (-∞, 0, 0) by the first key tile. So the block it stores is the
  finishing formula over two tile updates (BlockValue), whose entry (p, h) — with the blocks read as entries of the
  arguments (BlockReads) — is the tiled row of Spec; for real queries and keys that is the all-at-once row
  (SoftmaxTiles), which is entry (b, 512·tile + p, h) of the function `G` of Whole. The 32 written blocks tile the
  array, so the array ends holding `G`.
-/
import proofs.«100237_j17497696764367_2_alg».proof.Proof.BlockValue
import proofs.«100237_j17497696764367_2_alg».proof.Proof.BlockReads
import proofs.«100237_j17497696764367_2_alg».proof.Proof.Pieces
import proofs.«100237_j17497696764367_2_alg».proof.Proof.SoftmaxTiles
import proofs.«100237_j17497696764367_2_alg».proof.Proof.Whole

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.KernelIdeal.Blk Cert.Attn

variable (m : (ℓ : Loc nD τ sig) → Buf (Elt Ideal) ℓ) (ρ : Dev nD → PrngReg)

/-- The result array on device c: `G` of the six arguments as launched. -/
abbrev Gk (c : Dev nD) : Buf (Elt Ideal) ((c : Thread nD τ).loc main_v7) :=
  Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The grid point before `t`. -/
abbrev prevPt (t : Fin cfg0.N) : Fin cfg0.N := ⟨t.val - 1, Nat.lt_of_le_of_lt (Nat.sub_le _ _) t.isLt⟩

/-- A kv = 0 point leaves, as running maximum, the update of -∞ by its key tile. -/
theorem prev_m (c : Dev nD) (t' : Fin cfg0.N) (h0 : t'.val % 2 = 0) (h1 : ¬t'.val % 2 = 1) :
    (outsAt0 m c t'.val t'.isLt).2.1 = mA (iblk m c 0 t') (iblk m c 1 t') := by
  rw [outsAt0_A m c t' h0 h1]
  dsimp only
  exact Pieces.sA0 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) scM0_1 (Memref.isWhole_whole _) scM0_2 (Memref.isWhole_whole _) ((hcond0_0 t').mpr h0) (fun h => h1 ((hcond0_1 t').mp h)) (iblk m c 0 t') (iblk m c 1 t') (iblk m c 2 t') (iblk m c 3 t') (iblk m c 4 t') (iblk m c 5 t') (iblk m c 6 t')

/-- A kv = 0 point leaves, as running normaliser, the update of 0 by its key tile. -/
theorem prev_l (c : Dev nD) (t' : Fin cfg0.N) (h0 : t'.val % 2 = 0) (h1 : ¬t'.val % 2 = 1) :
    (outsAt0 m c t'.val t'.isLt).2.2.1 = lA (iblk m c 0 t') (iblk m c 1 t') := by
  rw [outsAt0_A m c t' h0 h1]
  dsimp only
  exact Pieces.sA1 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) scM0_1 (Memref.isWhole_whole _) scM0_2 (Memref.isWhole_whole _) ((hcond0_0 t').mpr h0) (fun h => h1 ((hcond0_1 t').mp h)) (iblk m c 0 t') (iblk m c 1 t') (iblk m c 2 t') (iblk m c 3 t') (iblk m c 4 t') (iblk m c 5 t') (iblk m c 6 t')

/-- A kv = 0 point leaves, as running weighted sum, the update of 0 by its key tile. -/
theorem prev_a (c : Dev nD) (t' : Fin cfg0.N) (h0 : t'.val % 2 = 0) (h1 : ¬t'.val % 2 = 1) :
    (outsAt0 m c t'.val t'.isLt).2.2.2 = aA (iblk m c 0 t') (iblk m c 1 t') := by
  rw [outsAt0_A m c t' h0 h1]
  dsimp only
  exact Pieces.sA2 (F := Ideal) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') (ms0_7 t') (hs0_7 t') scM0_0 (Memref.isWhole_whole _) scM0_1 (Memref.isWhole_whole _) scM0_2 (Memref.isWhole_whole _) ((hcond0_0 t').mpr h0) (fun h => h1 ((hcond0_1 t').mp h)) (iblk m c 0 t') (iblk m c 1 t') (iblk m c 2 t') (iblk m c 3 t') (iblk m c 4 t') (iblk m c 5 t') (iblk m c 6 t')

/-- What a kv = 1 point writes back is the block built from its own input blocks and the key tile of the point before. -/
theorem flushed_blk (c : Dev nD) (t : Fin cfg0.N) (h0 : ¬t.val % 2 = 0) (h1 : t.val % 2 = 1) :
    (dats m 0 c).flushed 7 t = (cfg0.win 7).cut (grid0.coords t)
      (blockOut (iblk m c 0 (prevPt t)) (iblk m c 0 t) (iblk m c 1 (prevPt t)) (iblk m c 1 t) (iblk m c 2 t) (iblk m c 3 t)
        (iblk m c 4 t) (iblk m c 5 t) (iblk m c 6 t)) := by
  have h0' : (prevPt t).val % 2 = 0 := by show (t.val - 1) % 2 = 0; omega
  have h1' : ¬(prevPt t).val % 2 = 1 := by show ¬(t.val - 1) % 2 = 1; omega
  rw [flushed7_B m c t h0 h1]
  refine congrArg ((cfg0.win 7).cut (grid0.coords t)) ?_
  refine (Pieces.oB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  exact blockOut_congr (iblk m c 0 (prevPt t)) (iblk m c 0 t) (iblk m c 1 (prevPt t)) (iblk m c 1 t) (iblk m c 2 t) (iblk m c 3 t)
    (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (prev_m m c (prevPt t) h0' h1') (prev_l m c (prevPt t) h0' h1') (prev_a m c (prevPt t) h0' h1')

/-- WHAT A WRITING POINT WRITES BACK is its block of `G`, when the queries and the values are real numbers. -/
theorem flushed_eq
    (hQ : ∀ (c : Dev nD) (i : S8x2048x1024.Idx), ∃ r : ℝ, (m ((c : Thread nD τ).loc main_arg0)) i = (r : EReal))
    (hV : ∀ (c : Dev nD) (i : S8x2048x1024.Idx), ∃ r : ℝ, (m ((c : Thread nD τ).loc main_arg1)) i = (r : EReal))
    (c : Dev nD) (t : Fin cfg0.N) (hf : (cfg0.win 7).flush t = true) :
    (dats m 0 c).flushed 7 t = ((cfg0.win 7).blk t).view.read (Elt Ideal) (Gk m c) := by
  have h1 : t.val % 2 = 1 := (flush0_7 t).mp hf
  have h0 : ¬t.val % 2 = 0 := by omega
  have hN : t.val < 64 := lt_of_lt_of_eq t.isLt N64
  rw [flushed_blk m c t h0 h1, iblk0_prev m c t (prevPt t) h1 rfl]
  funext y
  obtain ⟨u, p, h, rfl⟩ : ∃ (u : Fin 1) (p : Fin 512) (h : Fin 1024), y = ix3 u p h := ⟨y 0, y 1, y 2, eq_ix3 y⟩
  have hp := p.isLt
  obtain ⟨b, hb⟩ : ∃ b : Fin 8, b.val = t.val / 8 := ⟨⟨t.val / 8, by omega⟩, rfl⟩
  obtain ⟨r, hr⟩ : ∃ r : Fin 2048, r.val = t.val / 2 % 4 * 512 + p.val := ⟨⟨t.val / 2 % 4 * 512 + p.val, by omega⟩, rfl⟩
  obtain ⟨-, -, -, -, -, -, e0, e1, e2, -⟩ := idx_facts t
  have he : ((cfg0.win 7).blk t).view.emb (ix3 u p h) = (ix3 b r h : S8x2048x1024.Idx) := funext fun a => Fin.ext (by
    match a with
    | ⟨0, _⟩ => show win0_7.index t (0 : Fin 3) * 1 + 1 * u.val = b.val; have := u.isLt; omega
    | ⟨1, _⟩ => show win0_7.index t (1 : Fin 3) * 512 + 1 * p.val = r.val; omega
    | ⟨2, _⟩ => show win0_7.index t (2 : Fin 3) * 1024 + 1 * h.val = h.val; omega)
  rw [View.read_apply, he]
  show blockOut (iblk m c 0 t) (iblk m c 0 t) (iblk m c 1 (prevPt t)) (iblk m c 1 t) (iblk m c 2 t) (iblk m c 3 t)
      (iblk m c 4 t) (iblk m c 5 t) (iblk m c 6 t) (ix3 u p h) = _
  rw [blockOut_apply (iblk m c 0 t) (iblk m c 0 t) (iblk m c 1 (prevPt t)) (iblk m c 1 t) (iblk m c 2 t) (iblk m c 3 t)
      (iblk m c 4 t) (iblk m c 5 t) (iblk m c 6 t) rfl u p h]
  -- the rows of the blocks, as rows of the arguments
  have e_q : qrow (iblk m c 0 t) p = fun d => (m ((c : Thread nD τ).loc main_arg0)) (ix3 b r d) :=
    funext fun d => iblk0_apply m c t (0 : Fin 1) p d b r hb hr
  have e_v0 : vrows (iblk m c 1 (prevPt t))
      = fun (n : Fin 1024) (d : Fin 1024) => (m ((c : Thread nD τ).loc main_arg1)) (ix3 b (Fin.cast (by norm_num : 1024 + 1024 = 2048) (Fin.castAdd 1024 n)) d) :=
    funext fun n => funext fun d => iblk1_apply m c (prevPt t) (0 : Fin 1) n d b _
      (by show b.val = (t.val - 1) / 8; omega) (by show n.val = (t.val - 1) % 2 * 1024 + n.val; omega)
  have e_v1 : vrows (iblk m c 1 t)
      = fun (n : Fin 1024) (d : Fin 1024) => (m ((c : Thread nD τ).loc main_arg1)) (ix3 b (Fin.cast (by norm_num : 1024 + 1024 = 2048) (Fin.natAdd 1024 n)) d) :=
    funext fun n => funext fun d => iblk1_apply m c t (0 : Fin 1) n d b _ hb (by show 1024 + n.val = t.val % 2 * 1024 + n.val; omega)
  rw [e_q, e_v0, e_v1]
  -- the tiled row is the all-at-once row
  have key := outTiled_eq_outRef (D := 1024) (T := 1024) (H := 1024) (by norm_num)
    (fun d => (m ((c : Thread nD τ).loc main_arg0)) (ix3 b r d))
    (fun (n : Fin 1024) (d : Fin 1024) => (m ((c : Thread nD τ).loc main_arg1)) (ix3 b (Fin.cast (by norm_num : 1024 + 1024 = 2048) (Fin.castAdd 1024 n)) d))
    (fun (n : Fin 1024) (d : Fin 1024) => (m ((c : Thread nD τ).loc main_arg1)) (ix3 b (Fin.cast (by norm_num : 1024 + 1024 = 2048) (Fin.natAdd 1024 n)) d))
    (fun h' k => (m ((c : Thread nD τ).loc main_arg2)) (ix2 h' (Fin.cast (by norm_num : 1024 + 1024 = 2048) k)))
    (fun h' => (m ((c : Thread nD τ).loc main_arg3)) (ix1 h')) (fun h' => (m ((c : Thread nD τ).loc main_arg4)) (ix1 h')) (fun h' => (m ((c : Thread nD τ).loc main_arg5)) (ix1 h'))
    (fun d => hQ c _) (fun n d => hV c _) (fun n d => hV c _)
  rw [Fin.append_castAdd_natAdd (f := fun (n : Fin (1024 + 1024)) (d : Fin 1024) => (m ((c : Thread nD τ).loc main_arg1)) (ix3 b (Fin.cast (by norm_num : 1024 + 1024 = 2048) n) d))] at key
  refine Eq.trans ?_ (congrFun key h)
  unfold outTiled
  refine congrFun (congr (congr (congrArg (ln (H := 1024)) (funext fun h' => ?_)) (funext fun h' => iblk5_apply m c t h'))
    (funext fun h' => iblk6_apply m c t h')) h
  unfold projSplit
  refine congrArg₂ (fun a b : EReal => a + b) (congrArg₂ (fun a b : EReal => a + b)
    (Finset.sum_congr rfl fun k _ => ?_) (Finset.sum_congr rfl fun k _ => ?_)) (iblk4_apply m c t h')
  · rw [iblk2_apply m c t k h' (Fin.cast (by norm_num : 1024 + 1024 = 2048) (Fin.castAdd 1024 k)) rfl]
  · rw [iblk3_apply m c t k h' (Fin.cast (by norm_num : 1024 + 1024 = 2048) (Fin.natAdd 1024 k)) rfl]

/-- An index of the result array is in point `t`'s block iff each coordinate is in the block's range on its axis. -/
theorem mem_blk (t : Fin cfg0.N) (i : S8x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v7).slice (win0_7.rect t)).set ↔ _
  rw [View.set_slice_whole, Rect.mem_set_unit]
  exact Iff.rfl

/-- Every entry (b, r, h) of the result is in the block written at the point (b, r / 512, kv = 1). -/
theorem cover (i : S8x2048x1024.Idx) :
    ∃ t : Fin cfg0.N, (cfg0.win 7).flush t = true ∧ i ∈ ((cfg0.win 7).blk t).view.set := by
  have i0 : (i 0).val < 8 := (i 0).isLt
  have i1 : (i 1).val < 2048 := (i 1).isLt
  have i2 : (i 2).val < 1024 := (i 2).isLt
  obtain ⟨t, ht⟩ : ∃ t : Fin cfg0.N, t.val = ((i 0).val * 4 + (i 1).val / 512) * 2 + 1 :=
    ⟨⟨((i 0).val * 4 + (i 1).val / 512) * 2 + 1, by rw [N64]; omega⟩, rfl⟩
  obtain ⟨-, -, -, -, -, -, e0, e1, e2, -⟩ := idx_facts t
  refine ⟨t, (flush0_7 t).mpr (by omega), ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- THE ARRAY after the run is `G` of the arguments. -/
theorem final
    (hQ : ∀ (c : Dev nD) (i : S8x2048x1024.Idx), ∃ r : ℝ, (m ((c : Thread nD τ).loc main_arg0)) i = (r : EReal))
    (hV : ∀ (c : Dev nD) (i : S8x2048x1024.Idx), ∃ r : ℝ, (m ((c : Thread nD τ).loc main_arg1)) i = (r : EReal))
    (c : Dev nD) : (dats m 0 c).arrAt 7 cfg0.N = Gk m c :=
  (dats m 0 c).arrAt_eq_of_cover 7 (Gk m c) (fun t hf => flushed_eq m hQ hV c t hf) cover

/-- The kernel's run: the result array at `G` of the arguments, the arguments unchanged. -/
theorem run
    (hQ : ∀ (c : Dev nD) (i : S8x2048x1024.Idx), ∃ r : ℝ, (m ((c : Thread nD τ).loc main_arg0)) i = (r : EReal))
    (hV : ∀ (c : Dev nD) (i : S8x2048x1024.Idx), ∃ r : ℝ, (m ((c : Thread nD τ).loc main_arg1)) i = (r : EReal)) :
    θ_run defs (onTc (τ := τ) (main (F := Ideal))) ⟨m, fun _ => 0, ρ⟩ fun r => ∀ c : Dev nD,
      r.2.mem ((c : Thread nD τ).loc main_v7) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hQ hV c), (h c).2⟩) (Value.run_blocks m ρ)

end Cert.KernelIdeal.KValue
end
-- ==== Proof.RefRun.lean ====
/-
  The reference program's run. Its @main is a straight line of fifty host operations, each writing one array that
  nothing later overwrites, so running it leaves in the result array one pure function of the six argument arrays
  and leaves the arguments as they were.

  That function is written here in the stages the mathematics has: the scores of every query row against every key
  row, each row's largest score, the exponentials of the scores less that maximum, their row sums, the quotient, the
  weighted sum of the value rows, the context and the query laid side by side, their product with the weight matrix
  plus the bias, and the normalisation of each projected row (mean, centred row, variance, reciprocal root, scale and
  shift). Each stage is the composition of the program's own operations on the previous stages, for every float
  instance. `runOut` states the result array as the last stage, `out`.
-/
import proofs.«100237_j17497696764367_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Scores: entry (b, r, n) contracts query row r with key row n of batch b over the features. -/
def scores (x0 x1 : (⟨S8x2048x1024, .f32⟩ : BufTy).Contents (Elt F)) : (⟨S8x2048x2048, .f32⟩ : BufTy).Contents (Elt F) :=
  Host.dotGeneral dot_S8x2048x1024_S8x2048x1024_S8x2048x2048_2_2_1_1_0_0 none x0 x1

/-- Each row's largest score: the reduction over the keys from -∞, then once more against a -∞ splat. -/
def rowMax (x0 x1 : (⟨S8x2048x1024, .f32⟩ : BufTy).Contents (Elt F)) : (⟨S8x2048, .f32⟩ : BufTy).Contents (Elt F) :=
  maximumf (broadcastInDim S8x2048 ![] bcast_S_S8x2048 (constant S_ .f32 0xFF800000#32))
    (Host.reduce FloatOps.maximumf (scores x0 x1) (constant S_ .f32 0xFF800000#32) reducesTo_S8x2048x2048_S8x2048_d2 h_S_)

/-- The exponential of each score less its row's maximum. -/
def expScores (x0 x1 : (⟨S8x2048x1024, .f32⟩ : BufTy).Contents (Elt F)) : (⟨S8x2048x2048, .f32⟩ : BufTy).Contents (Elt F) :=
  Host.exp (subf (scores x0 x1)
    (broadcastInDim S8x2048x2048 ![0, 1, 2] bcast_S8x2048x1_S8x2048x2048_0_1_2
      (broadcastInDim S8x2048x1 ![0, 1] bcast_S8x2048_S8x2048x1_0_1 (rowMax x0 x1))))

/-- Each row's sum of those exponentials, from 0. -/
def rowSum (x0 x1 : (⟨S8x2048x1024, .f32⟩ : BufTy).Contents (Elt F)) : (⟨S8x2048, .f32⟩ : BufTy).Contents (Elt F) :=
  Host.reduceAdd (expScores x0 x1) (constant S_ .f32 0x00000000#32) reducesTo_S8x2048x2048_S8x2048_d2 h_S_

/-- The softmax weights: each exponential over its row's sum. -/
def weights (x0 x1 : (⟨S8x2048x1024, .f32⟩ : BufTy).Contents (Elt F)) : (⟨S8x2048x2048, .f32⟩ : BufTy).Contents (Elt F) :=
  Host.divf (expScores x0 x1)
    (broadcastInDim S8x2048x2048 ![0, 1, 2] bcast_S8x2048x1_S8x2048x2048_0_1_2
      (broadcastInDim S8x2048x1 ![0, 1] bcast_S8x2048_S8x2048x1_0_1 (rowSum x0 x1)))

/-- The context: the value rows of the batch weighted by the softmax. -/
def context (x0 x1 : (⟨S8x2048x1024, .f32⟩ : BufTy).Contents (Elt F)) : (⟨S8x2048x1024, .f32⟩ : BufTy).Contents (Elt F) :=
  Host.dotGeneral dot_S8x2048x2048_S8x2048x1024_S8x2048x1024_2_1_1_2_0_0 none (weights x0 x1) x1

/-- Two arrays of rows side by side along the feature axis: the program's concatenation, named, so that it is an
    ordinary function of its two operands. -/
def joinRows (a b : (⟨S8x2048x1024, .f32⟩ : BufTy).Contents (Elt F)) : (⟨S8x2048x2048, .f32⟩ : BufTy).Contents (Elt F) :=
  concatenate S8x2048x2048 2 [⟨S8x2048x1024, a⟩, ⟨S8x2048x1024, b⟩] concatenates_S8x2048x1024_S8x2048x1024_S8x2048x2048_d2

/-- The context and the query side by side. -/
def joined (x0 x1 : (⟨S8x2048x1024, .f32⟩ : BufTy).Contents (Elt F)) : (⟨S8x2048x2048, .f32⟩ : BufTy).Contents (Elt F) := joinRows (context x0 x1) x0

/-- The projection of rows `C` and `Q` laid side by side: the joined row against each row of the weight matrix, plus the
    bias. -/
def projectedOf (C Q : (⟨S8x2048x1024, .f32⟩ : BufTy).Contents (Elt F)) (x2 : (⟨S1024x2048, .f32⟩ : BufTy).Contents (Elt F)) (x3 : (⟨S1024, .f32⟩ : BufTy).Contents (Elt F)) : (⟨S8x2048x1024, .f32⟩ : BufTy).Contents (Elt F) :=
  addf (Host.dotGeneral dot_S8x2048x2048_S1024x2048_S8x2048x1024_2_1_01_0_n_n none (joinRows C Q) x2)
    (broadcastInDim S8x2048x1024 ![0, 1, 2] bcast_S1x1x1024_S8x2048x1024_0_1_2 (broadcastInDim S1x1x1024 ![2] bcast_S1024_S1x1x1024_2 x3))

/-- The program's projection: of the context and the query. -/
def projected (x0 x1 : (⟨S8x2048x1024, .f32⟩ : BufTy).Contents (Elt F)) (x2 : (⟨S1024x2048, .f32⟩ : BufTy).Contents (Elt F)) (x3 : (⟨S1024, .f32⟩ : BufTy).Contents (Elt F)) : (⟨S8x2048x1024, .f32⟩ : BufTy).Contents (Elt F) :=
  projectedOf (context x0 x1) x0 x2 x3

/-- Each row's mean of an array `P` of rows: its sum from 0 over the word of 1024. -/
def rowMeanOf (P : (⟨S8x2048x1024, .f32⟩ : BufTy).Contents (Elt F)) : (⟨S8x2048x1, .f32⟩ : BufTy).Contents (Elt F) :=
  Host.divf
    (broadcastInDim S8x2048x1 ![0, 1] bcast_S8x2048_S8x2048x1_0_1
      (Host.reduceAdd P (constant S_ .f32 0x00000000#32) reducesTo_S8x2048x1024_S8x2048_d2 h_S_))
    (broadcastInDim S8x2048x1 ![] bcast_S_S8x2048x1 (constant S_ .f32 0x44800000#32))

/-- Each row less its mean. -/
def centredOf (P : (⟨S8x2048x1024, .f32⟩ : BufTy).Contents (Elt F)) : (⟨S8x2048x1024, .f32⟩ : BufTy).Contents (Elt F) :=
  subf P (broadcastInDim S8x2048x1024 ![0, 1, 2] bcast_S8x2048x1_S8x2048x1024_0_1_2 (rowMeanOf P))

/-- Each row's variance: the sum of the squared deviations from 0 over the word of 1024. -/
def rowVarOf (P : (⟨S8x2048x1024, .f32⟩ : BufTy).Contents (Elt F)) : (⟨S8x2048x1, .f32⟩ : BufTy).Contents (Elt F) :=
  Host.divf
    (broadcastInDim S8x2048x1 ![0, 1] bcast_S8x2048_S8x2048x1_0_1
      (Host.reduceAdd (mulf (centredOf P) (centredOf P)) (constant S_ .f32 0x00000000#32) reducesTo_S8x2048x1024_S8x2048_d2 h_S_))
    (broadcastInDim S8x2048x1 ![] bcast_S_S8x2048x1 (constant S_ .f32 0x44800000#32))

/-- The reciprocal root of each row's variance plus the small constant. -/
def rowRstdOf (P : (⟨S8x2048x1024, .f32⟩ : BufTy).Contents (Elt F)) : (⟨S8x2048x1, .f32⟩ : BufTy).Contents (Elt F) :=
  Host.rsqrt (addf (rowVarOf P) (broadcastInDim S8x2048x1 ![] bcast_S_S8x2048x1 (constant S_ .f32 0x3727C5AC#32)))

/-- The normalisation of every row of `P`: the centred row times the reciprocal root, times `g`, plus `be`. -/
def normRows (P : (⟨S8x2048x1024, .f32⟩ : BufTy).Contents (Elt F)) (g be : (⟨S1024, .f32⟩ : BufTy).Contents (Elt F)) : (⟨S8x2048x1024, .f32⟩ : BufTy).Contents (Elt F) :=
  addf
    (mulf
      (mulf (centredOf P) (broadcastInDim S8x2048x1024 ![0, 1, 2] bcast_S8x2048x1_S8x2048x1024_0_1_2 (rowRstdOf P)))
      (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 be))

/-- The result: the projected rows, normalised with gamma and beta. -/
def out (x0 x1 : (⟨S8x2048x1024, .f32⟩ : BufTy).Contents (Elt F)) (x2 : (⟨S1024x2048, .f32⟩ : BufTy).Contents (Elt F)) (x3 x4 x5 : (⟨S1024, .f32⟩ : BufTy).Contents (Elt F)) : (⟨S8x2048x1024, .f32⟩ : BufTy).Contents (Elt F) :=
  normRows (projected x0 x1 x2 x3) x4 x5

/-! ## The program as a list, and its run -/

/-- @main's fifty operations, in order. -/
abbrev ops : List (HloOp τ sig (Elt F)) :=
  [ binary main_arg0 main_arg1 main_v0 ((fun l r => Host.dotGeneral dot_S8x2048x1024_S8x2048x1024_S8x2048x2048_2_2_1_1_0_0 none l r) : (⟨S8x2048x1024, .f32⟩ : BufTy).Contents (Elt F) → (⟨S8x2048x1024, .f32⟩ : BufTy).Contents (Elt F) → (⟨S8x2048x2048, .f32⟩ : BufTy).Contents (Elt F)),
    nullary main_cst (constant S_ .f32 0xFF800000#32),
    binary main_v0 main_cst main_v1 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_0 (constant S_ .f32 0xFF800000#32),
    unary main_cst_0 main_v2 (broadcastInDim S8x2048 ![] bcast_S_S8x2048 : (⟨S_, .f32⟩ : BufTy).Contents (Elt F) → (⟨S8x2048, .f32⟩ : BufTy).Contents (Elt F)),
    binary main_v2 main_v1 main_v3 (maximumf : (⟨S8x2048, .f32⟩ : BufTy).Contents (Elt F) → (⟨S8x2048, .f32⟩ : BufTy).Contents (Elt F) → (⟨S8x2048, .f32⟩ : BufTy).Contents (Elt F)),
    unary main_v3 main_v4 (broadcastInDim S8x2048x1 ![0, 1] bcast_S8x2048_S8x2048x1_0_1 : (⟨S8x2048, .f32⟩ : BufTy).Contents (Elt F) → (⟨S8x2048x1, .f32⟩ : BufTy).Contents (Elt F)),
    unary main_v4 main_v5 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v0 main_v5 main_v6 (subf : (⟨S8x2048x2048, .f32⟩ : BufTy).Contents (Elt F) → (⟨S8x2048x2048, .f32⟩ : BufTy).Contents (Elt F) → (⟨S8x2048x2048, .f32⟩ : BufTy).Contents (Elt F)),
    unary main_v6 main_v7 (Host.exp : (⟨S8x2048x2048, .f32⟩ : BufTy).Contents (Elt F) → (⟨S8x2048x2048, .f32⟩ : BufTy).Contents (Elt F)),
    nullary main_cst_1 (constant S_ .f32 0x00000000#32),
    binary main_v7 main_cst_1 main_v8 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v8 main_v9 (broadcastInDim S8x2048x1 ![0, 1] bcast_S8x2048_S8x2048x1_0_1 : (⟨S8x2048, .f32⟩ : BufTy).Contents (Elt F) → (⟨S8x2048x1, .f32⟩ : BufTy).Contents (Elt F)),
    unary main_v9 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v7 main_v10 main_v11 (Host.divf : (⟨S8x2048x2048, .f32⟩ : BufTy).Contents (Elt F) → (⟨S8x2048x2048, .f32⟩ : BufTy).Contents (Elt F) → (⟨S8x2048x2048, .f32⟩ : BufTy).Contents (Elt F)),
    binary main_v11 main_arg1 main_v12 ((fun l r => Host.dotGeneral dot_S8x2048x2048_S8x2048x1024_S8x2048x1024_2_1_1_2_0_0 none l r) : (⟨S8x2048x2048, .f32⟩ : BufTy).Contents (Elt F) → (⟨S8x2048x1024, .f32⟩ : BufTy).Contents (Elt F) → (⟨S8x2048x1024, .f32⟩ : BufTy).Contents (Elt F)),
    binary main_v12 main_arg0 main_v13 (joinRows : (⟨S8x2048x1024, .f32⟩ : BufTy).Contents (Elt F) → (⟨S8x2048x1024, .f32⟩ : BufTy).Contents (Elt F) → (⟨S8x2048x2048, .f32⟩ : BufTy).Contents (Elt F)),
    binary main_v13 main_arg2 main_v14 ((fun l r => Host.dotGeneral dot_S8x2048x2048_S1024x2048_S8x2048x1024_2_1_01_0_n_n none l r) : (⟨S8x2048x2048, .f32⟩ : BufTy).Contents (Elt F) → (⟨S1024x2048, .f32⟩ : BufTy).Contents (Elt F) → (⟨S8x2048x1024, .f32⟩ : BufTy).Contents (Elt F)),
    unary main_arg3 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v14 main_v16 main_v17 (addf : (⟨S8x2048x1024, .f32⟩ : BufTy).Contents (Elt F) → (⟨S8x2048x1024, .f32⟩ : BufTy).Contents (Elt F) → (⟨S8x2048x1024, .f32⟩ : BufTy).Contents (Elt F)),
    nullary main_cst_2 (constant S_ .f32 0x00000000#32),
    binary main_v17 main_cst_2 main_v18 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v18 main_v19 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_3 (constant S_ .f32 0x44800000#32),
    unary main_cst_3 main_v20 (broadcastInDim S8x2048x1 ![] bcast_S_S8x2048x1 : (⟨S_, .f32⟩ : BufTy).Contents (Elt F) → (⟨S8x2048x1, .f32⟩ : BufTy).Contents (Elt F)),
    binary main_v19 main_v20 main_v21 (Host.divf : (⟨S8x2048x1, .f32⟩ : BufTy).Contents (Elt F) → (⟨S8x2048x1, .f32⟩ : BufTy).Contents (Elt F) → (⟨S8x2048x1, .f32⟩ : BufTy).Contents (Elt F)),
    unary main_v21 main_v22 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v17 main_v22 main_v23 (subf : (⟨S8x2048x1024, .f32⟩ : BufTy).Contents (Elt F) → (⟨S8x2048x1024, .f32⟩ : BufTy).Contents (Elt F) → (⟨S8x2048x1024, .f32⟩ : BufTy).Contents (Elt F)),
    binary main_v23 main_v23 main_v24 (mulf : (⟨S8x2048x1024, .f32⟩ : BufTy).Contents (Elt F) → (⟨S8x2048x1024, .f32⟩ : BufTy).Contents (Elt F) → (⟨S8x2048x1024, .f32⟩ : BufTy).Contents (Elt F)),
    nullary main_cst_4 (constant S_ .f32 0x00000000#32),
    binary main_v24 main_cst_4 main_v25 ((fun x v => Host.reduceAdd x v reducesTo_S8x2048x1024_S8x2048_d2 h_S_) : (⟨S8x2048x1024, .f32⟩ : BufTy).Contents (Elt F) → (⟨S_, .f32⟩ : BufTy).Contents (Elt F) → (⟨S8x2048, .f32⟩ : BufTy).Contents (Elt F)),
    unary main_v25 main_v26 (broadcastInDim S8x2048x1 ![0, 1] bcast_S8x2048_S8x2048x1_0_1 : (⟨S8x2048, .f32⟩ : BufTy).Contents (Elt F) → (⟨S8x2048x1, .f32⟩ : BufTy).Contents (Elt F)),
    nullary main_cst_5 (constant S_ .f32 0x44800000#32),
    unary main_cst_5 main_v27 (broadcastInDim S8x2048x1 ![] bcast_S_S8x2048x1 : (⟨S_, .f32⟩ : BufTy).Contents (Elt F) → (⟨S8x2048x1, .f32⟩ : BufTy).Contents (Elt F)),
    binary main_v26 main_v27 main_v28 (Host.divf : (⟨S8x2048x1, .f32⟩ : BufTy).Contents (Elt F) → (⟨S8x2048x1, .f32⟩ : BufTy).Contents (Elt F) → (⟨S8x2048x1, .f32⟩ : BufTy).Contents (Elt F)),
    unary main_v21 main_v29 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v17 main_v29 main_v30 (subf : (⟨S8x2048x1024, .f32⟩ : BufTy).Contents (Elt F) → (⟨S8x2048x1024, .f32⟩ : BufTy).Contents (Elt F) → (⟨S8x2048x1024, .f32⟩ : BufTy).Contents (Elt F)),
    nullary main_cst_6 (constant S_ .f32 0x3727C5AC#32),
    unary main_cst_6 main_v31 (broadcastInDim S8x2048x1 ![] bcast_S_S8x2048x1 : (⟨S_, .f32⟩ : BufTy).Contents (Elt F) → (⟨S8x2048x1, .f32⟩ : BufTy).Contents (Elt F)),
    binary main_v28 main_v31 main_v32 (addf : (⟨S8x2048x1, .f32⟩ : BufTy).Contents (Elt F) → (⟨S8x2048x1, .f32⟩ : BufTy).Contents (Elt F) → (⟨S8x2048x1, .f32⟩ : BufTy).Contents (Elt F)),
    unary main_v32 main_v33 (Host.rsqrt : (⟨S8x2048x1, .f32⟩ : BufTy).Contents (Elt F) → (⟨S8x2048x1, .f32⟩ : BufTy).Contents (Elt F)),
    unary main_v33 main_v34 (broadcastInDim S8x2048x1024 ![0, 1, 2] bcast_S8x2048x1_S8x2048x1024_0_1_2 : (⟨S8x2048x1, .f32⟩ : BufTy).Contents (Elt F) → (⟨S8x2048x1024, .f32⟩ : BufTy).Contents (Elt F)),
    binary main_v30 main_v34 main_v35 (mulf : (⟨S8x2048x1024, .f32⟩ : BufTy).Contents (Elt F) → (⟨S8x2048x1024, .f32⟩ : BufTy).Contents (Elt F) → (⟨S8x2048x1024, .f32⟩ : BufTy).Contents (Elt F)),
    unary main_arg4 main_v36 (broadcastInDim S1x1x1024 ![2] bcast_S1024_S1x1x1024_2 : (⟨S1024, .f32⟩ : BufTy).Contents (Elt F) → (⟨S1x1x1024, .f32⟩ : BufTy).Contents (Elt F)),
    unary main_v36 main_v37 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v35 main_v37 main_v38 (mulf : (⟨S8x2048x1024, .f32⟩ : BufTy).Contents (Elt F) → (⟨S8x2048x1024, .f32⟩ : BufTy).Contents (Elt F) → (⟨S8x2048x1024, .f32⟩ : BufTy).Contents (Elt F)),
    unary main_arg5 main_v39 (broadcastInDim S1x1x1024 ![2] bcast_S1024_S1x1x1024_2 : (⟨S1024, .f32⟩ : BufTy).Contents (Elt F) → (⟨S1x1x1024, .f32⟩ : BufTy).Contents (Elt F)),
    unary main_v39 main_v40 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    binary main_v38 main_v40 main_v41 (addf : (⟨S8x2048x1024, .f32⟩ : BufTy).Contents (Elt F) → (⟨S8x2048x1024, .f32⟩ : BufTy).Contents (Elt F) → (⟨S8x2048x1024, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 65536 in
set_option maxHeartbeats 4000000 in
/-- On every device, for any float values, from any memory with zero counters: every weakly fair execution of @main
    terminates with the result array at `out` of the six argument arrays' launch contents and the arguments unchanged. -/
theorem runOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v41).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefReadLib.lean ====
/-
  The reference program's operations read at an index, at the ideal values, on this program's own shapes: what one
  entry of each operation's result is in terms of entries of its operands.

  • the three contractions: scores (query row against key row, summed over the features, one batch axis), the weighted
    sum of the value rows (summed over the keys, one batch axis), and the projection (the joined row against a row of
    the weight matrix, summed over the 2048 joined features);
  • the reductions over the last axis: the sum from 0 is the plain sum, the maximum from -∞ is the fold of `max` from ⊥;
  • the broadcasts: a per-row value to every key or feature of its row, a scalar to everything, a feature vector to
    every row;
  • the concatenation along the feature axis: at joined feature k the first array for k < 1024 and the second at
    k - 1024 otherwise, which is `Fin.append` of the two rows.
-/
import proofs.«100237_j17497696764367_2_alg».proof.Proof.Gen.ReferenceIdeal
import proofs.«100237_j17497696764367_2_alg».proof.Proof.LibLastAxisMax
import Idealize.ShloMosaic.Lib.Pipeline.Value
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

/-- The f32 word of -∞ is the bottom of the extended reals. -/
theorem negInf : Ideal.ofBits .f32 0xFF800000#32 = ⊥ := by simp [Ideal.ofBits, Ideal.ieee]

/-! ## The three contractions -/

abbrev DQK : DotDims S8x2048x1024 S8x2048x1024 S8x2048x2048 := dot_S8x2048x1024_S8x2048x1024_S8x2048x2048_2_2_1_1_0_0
abbrev DPV : DotDims S8x2048x2048 S8x2048x1024 S8x2048x1024 := dot_S8x2048x2048_S8x2048x1024_S8x2048x1024_2_1_1_2_0_0
abbrev DW : DotDims S8x2048x2048 S1024x2048 S8x2048x1024 := dot_S8x2048x2048_S1024x2048_S8x2048x1024_2_1_01_0_n_n

theorem qk_l0 (i : S8x2048x2048.Idx) (q : DQK.contr.Idx) : (DQK.lhsIdx i q 0).val = (i 0).val := by
  unfold DotDims.lhsIdx
  rw [dif_pos (show (0 : Fin S8x2048x1024.rank) ∈ DQK.lhsBatch by decide)]
  rfl
theorem qk_l1 (i : S8x2048x2048.Idx) (q : DQK.contr.Idx) : (DQK.lhsIdx i q 1).val = (i 1).val := by
  unfold DotDims.lhsIdx
  rw [dif_neg (show ¬(1 : Fin S8x2048x1024.rank) ∈ DQK.lhsBatch by decide),
    dif_pos (show (1 : Fin S8x2048x1024.rank) ∈ DQK.lhsNonContracting by decide)]
  rfl
theorem qk_r0 (i : S8x2048x2048.Idx) (q : DQK.contr.Idx) : (DQK.rhsIdx i q 0).val = (i 0).val := by
  unfold DotDims.rhsIdx
  rw [dif_pos (show (0 : Fin S8x2048x1024.rank) ∈ DQK.rhsBatch by decide)]
  rfl
theorem qk_r1 (i : S8x2048x2048.Idx) (q : DQK.contr.Idx) : (DQK.rhsIdx i q 1).val = (i 2).val := by
  unfold DotDims.rhsIdx
  rw [dif_neg (show ¬(1 : Fin S8x2048x1024.rank) ∈ DQK.rhsBatch by decide),
    dif_pos (show (1 : Fin S8x2048x1024.rank) ∈ DQK.rhsNonContracting by decide)]
  rfl
theorem pv_l0 (i : S8x2048x1024.Idx) (q : DPV.contr.Idx) : (DPV.lhsIdx i q 0).val = (i 0).val := by
  unfold DotDims.lhsIdx
  rw [dif_pos (show (0 : Fin S8x2048x2048.rank) ∈ DPV.lhsBatch by decide)]
  rfl
theorem pv_l1 (i : S8x2048x1024.Idx) (q : DPV.contr.Idx) : (DPV.lhsIdx i q 1).val = (i 1).val := by
  unfold DotDims.lhsIdx
  rw [dif_neg (show ¬(1 : Fin S8x2048x2048.rank) ∈ DPV.lhsBatch by decide),
    dif_pos (show (1 : Fin S8x2048x2048.rank) ∈ DPV.lhsNonContracting by decide)]
  rfl
theorem pv_r0 (i : S8x2048x1024.Idx) (q : DPV.contr.Idx) : (DPV.rhsIdx i q 0).val = (i 0).val := by
  unfold DotDims.rhsIdx
  rw [dif_pos (show (0 : Fin S8x2048x1024.rank) ∈ DPV.rhsBatch by decide)]
  rfl
theorem pv_r2 (i : S8x2048x1024.Idx) (q : DPV.contr.Idx) : (DPV.rhsIdx i q 2).val = (i 2).val := by
  unfold DotDims.rhsIdx
  rw [dif_neg (show ¬(2 : Fin S8x2048x1024.rank) ∈ DPV.rhsBatch by decide),
    dif_pos (show (2 : Fin S8x2048x1024.rank) ∈ DPV.rhsNonContracting by decide)]
  rfl
theorem w_l0 (i : S8x2048x1024.Idx) (q : DW.contr.Idx) : (DW.lhsIdx i q 0).val = (i 0).val := by
  unfold DotDims.lhsIdx
  rw [dif_neg (show ¬(0 : Fin S8x2048x2048.rank) ∈ DW.lhsBatch by decide),
    dif_pos (show (0 : Fin S8x2048x2048.rank) ∈ DW.lhsNonContracting by decide)]
  rfl
theorem w_l1 (i : S8x2048x1024.Idx) (q : DW.contr.Idx) : (DW.lhsIdx i q 1).val = (i 1).val := by
  unfold DotDims.lhsIdx
  rw [dif_neg (show ¬(1 : Fin S8x2048x2048.rank) ∈ DW.lhsBatch by decide),
    dif_pos (show (1 : Fin S8x2048x2048.rank) ∈ DW.lhsNonContracting by decide)]
  rfl
theorem w_r0 (i : S8x2048x1024.Idx) (q : DW.contr.Idx) : (DW.rhsIdx i q 0).val = (i 2).val := by
  unfold DotDims.rhsIdx
  rw [dif_neg (show ¬(0 : Fin S1024x2048.rank) ∈ DW.rhsBatch by decide),
    dif_pos (show (0 : Fin S1024x2048.rank) ∈ DW.rhsNonContracting by decide)]
  rfl

theorem dotQK_apply (l r : FVec Ideal S8x2048x1024 .f32) (b : Fin 8) (p n : Fin 2048) :
    Host.dotGeneral DQK none l r (ix3 b p n) = ∑ d : Fin 1024, l (ix3 b p d) * r (ix3 b n d) := by
  simp only [Host.dotGeneral]
  rw [Ideal.dotGeneral_apply, ← Equiv.sum_comp (contrEquiv1 DQK 1024 rfl rfl).symm]
  refine Finset.sum_congr rfl fun k _ => ?_
  have hk := contrEquiv1_symm_val DQK 1024 rfl rfl k
  have el : DQK.lhsIdx (ix3 b p n) ((contrEquiv1 DQK 1024 rfl rfl).symm k) = ix3 b p k := funext fun a => Fin.ext (by
    match a with
    | ⟨0, _⟩ => exact qk_l0 _ _
    | ⟨1, _⟩ => exact qk_l1 _ _
    | ⟨2, _⟩ => exact (DQK.lhsIdx_val_of_single rfl _ _).trans hk)
  have er : DQK.rhsIdx (ix3 b p n) ((contrEquiv1 DQK 1024 rfl rfl).symm k) = ix3 b n k := funext fun a => Fin.ext (by
    match a with
    | ⟨0, _⟩ => exact qk_r0 _ _
    | ⟨1, _⟩ => exact qk_r1 _ _
    | ⟨2, _⟩ => exact (DQK.rhsIdx_val_of_single rfl _ _).trans hk)
  rw [el, er]

theorem dotPV_apply (l : FVec Ideal S8x2048x2048 .f32) (r : FVec Ideal S8x2048x1024 .f32) (b : Fin 8) (p : Fin 2048) (d : Fin 1024) :
    Host.dotGeneral DPV none l r (ix3 b p d) = ∑ n : Fin 2048, l (ix3 b p n) * r (ix3 b n d) := by
  simp only [Host.dotGeneral]
  rw [Ideal.dotGeneral_apply, ← Equiv.sum_comp (contrEquiv1 DPV 2048 rfl rfl).symm]
  refine Finset.sum_congr rfl fun k _ => ?_
  have hk := contrEquiv1_symm_val DPV 2048 rfl rfl k
  have el : DPV.lhsIdx (ix3 b p d) ((contrEquiv1 DPV 2048 rfl rfl).symm k) = ix3 b p k := funext fun a => Fin.ext (by
    match a with
    | ⟨0, _⟩ => exact pv_l0 _ _
    | ⟨1, _⟩ => exact pv_l1 _ _
    | ⟨2, _⟩ => exact (DPV.lhsIdx_val_of_single rfl _ _).trans hk)
  have er : DPV.rhsIdx (ix3 b p d) ((contrEquiv1 DPV 2048 rfl rfl).symm k) = ix3 b k d := funext fun a => Fin.ext (by
    match a with
    | ⟨0, _⟩ => exact pv_r0 _ _
    | ⟨1, _⟩ => exact (DPV.rhsIdx_val_of_single rfl _ _).trans hk
    | ⟨2, _⟩ => exact pv_r2 _ _)
  rw [el, er]

theorem dotW_apply (l : FVec Ideal S8x2048x2048 .f32) (r : FVec Ideal S1024x2048 .f32) (b : Fin 8) (p : Fin 2048) (h : Fin 1024) :
    Host.dotGeneral DW none l r (ix3 b p h) = ∑ k : Fin 2048, l (ix3 b p k) * r (ix2 h k) := by
  simp only [Host.dotGeneral]
  rw [Ideal.dotGeneral_apply, ← Equiv.sum_comp (contrEquiv1 DW 2048 rfl rfl).symm]
  refine Finset.sum_congr rfl fun k _ => ?_
  have hk := contrEquiv1_symm_val DW 2048 rfl rfl k
  have el : DW.lhsIdx (ix3 b p h) ((contrEquiv1 DW 2048 rfl rfl).symm k) = ix3 b p k := funext fun a => Fin.ext (by
    match a with
    | ⟨0, _⟩ => exact w_l0 _ _
    | ⟨1, _⟩ => exact w_l1 _ _
    | ⟨2, _⟩ => exact (DW.lhsIdx_val_of_single rfl _ _).trans hk)
  have er : DW.rhsIdx (ix3 b p h) ((contrEquiv1 DW 2048 rfl rfl).symm k) = ix2 h k := funext fun a => Fin.ext (by
    match a with
    | ⟨0, _⟩ => exact w_r0 _ _
    | ⟨1, _⟩ => exact (DW.rhsIdx_val_of_single rfl _ _).trans hk)
  rw [el, er]

/-! ## The reductions over the last axis -/

theorem sumKeys_apply (x : FVec Ideal S8x2048x2048 .f32) (b : Fin 8) (p : Fin 2048) :
    Host.reduceAdd x (constant (F := Ideal) S_ .f32 0x00000000#32) reducesTo_S8x2048x2048_S8x2048_d2 h_S_ (ix2 b p)
      = ∑ n : Fin 2048, x (ix3 b p n) := by
  simp only [Host.reduceAdd, Ideal.hostReduceAdd_def]
  rw [Ideal.hostReduceAdd_single reducesTo_S8x2048x2048_S8x2048_d2 (by decide)]
  show Ideal.ofBits .f32 0x00000000#32 + _ = _
  rw [Ideal.ofBits_zero_f32, zero_add]
  exact Finset.sum_congr rfl fun n _ => congrArg x (Cert.LibLastAxisMax.lift_last3 _ b p n)

theorem sumFeat_apply (x : FVec Ideal S8x2048x1024 .f32) (b : Fin 8) (p : Fin 2048) :
    Host.reduceAdd x (constant (F := Ideal) S_ .f32 0x00000000#32) reducesTo_S8x2048x1024_S8x2048_d2 h_S_ (ix2 b p)
      = ∑ k : Fin 1024, x (ix3 b p k) := by
  simp only [Host.reduceAdd, Ideal.hostReduceAdd_def]
  rw [Ideal.hostReduceAdd_single reducesTo_S8x2048x1024_S8x2048_d2 (by decide)]
  show Ideal.ofBits .f32 0x00000000#32 + _ = _
  rw [Ideal.ofBits_zero_f32, zero_add]
  exact Finset.sum_congr rfl fun n _ => congrArg x (Cert.LibLastAxisMax.lift_last3 _ b p n)

theorem maxKeys_apply (x : FVec Ideal S8x2048x2048 .f32) (b : Fin 8) (p : Fin 2048) :
    Host.reduce (FloatOps.maximumf (F := Ideal) (φ := .f32)) x (constant (F := Ideal) S_ .f32 0xFF800000#32)
        reducesTo_S8x2048x2048_S8x2048_d2 h_S_ (ix2 b p)
      = (Finset.univ : Finset (Fin 2048)).fold max ⊥ (fun n => x (ix3 b p n)) := by
  rw [Cert.LibLastAxisMax.hostLastMax3_apply x _ reducesTo_S8x2048x2048_S8x2048_d2 (by decide) h_S_ b p]
  show Finset.fold max (Ideal.ofBits .f32 0xFF800000#32) _ _ = _
  rw [negInf]

/-! ## The two halves of the joined row -/

theorem concat_apply {α : Type} (c q : S8x2048x1024.Idx → α) (b : Fin 8) (p : Fin 2048) (k : Fin (1024 + 1024)) :
    concatenate S8x2048x2048 2 [⟨S8x2048x1024, c⟩, ⟨S8x2048x1024, q⟩] concatenates_S8x2048x1024_S8x2048x1024_S8x2048x2048_d2
        (ix3 b p (Fin.cast (by norm_num) k))
      = Fin.append (fun d : Fin 1024 => c (ix3 b p d)) (fun d : Fin 1024 => q (ix3 b p d)) k := by
  refine Fin.addCases (fun d => ?_) (fun d => ?_) k
  · rw [Fin.append_left]
    exact concatenate_pair_apply_left (t := S8x2048x2048) 2 c q concatenates_S8x2048x1024_S8x2048x1024_S8x2048x2048_d2
      (ix3 b p (Fin.cast (by norm_num) (Fin.castAdd 1024 d))) (rfl : S8x2048x1024.rank = S8x2048x2048.rank) (ix3 b p d)
      (fun a => match a with
        | ⟨0, _⟩ => rfl
        | ⟨1, _⟩ => rfl
        | ⟨2, _⟩ => rfl)
  · rw [Fin.append_right]
    exact concatenate_pair_apply_right (t := S8x2048x2048) 2 c q concatenates_S8x2048x1024_S8x2048x1024_S8x2048x2048_d2
      (ix3 b p (Fin.cast (by norm_num) (Fin.natAdd 1024 d))) (rfl : S8x2048x1024.rank = S8x2048x2048.rank)
      (rfl : S8x2048x1024.rank = S8x2048x2048.rank) (ix3 b p d)
      (fun a => match a with
        | ⟨0, _⟩ => fun _ => rfl
        | ⟨1, _⟩ => fun _ => rfl
        | ⟨2, _⟩ => fun h => absurd rfl h)
      (by show d.val + 1024 = 1024 + d.val; omega)

/-! ## The broadcasts -/

section Bcast

variable {α : Type}

theorem bcast_row_col (y : S8x2048.Idx → α) (b : Fin 8) (r : Fin 2048) (u : Fin 1) :
    broadcastInDim S8x2048x1 ![0, 1] bcast_S8x2048_S8x2048x1_0_1 y (ix3 b r u) = y (ix2 b r) :=
  broadcastInDim_apply _ bcast_S8x2048_S8x2048x1_0_1 y _ _ (fun a => match a with
    | ⟨0, _⟩ => by show b.val = if (8 : Nat) = 1 then 0 else b.val; rw [if_neg (by decide)]
    | ⟨1, _⟩ => by show r.val = if (2048 : Nat) = 1 then 0 else r.val; rw [if_neg (by decide)])

theorem bcast_col_keys (y : S8x2048x1.Idx → α) (b : Fin 8) (r n : Fin 2048) :
    broadcastInDim S8x2048x2048 ![0, 1, 2] bcast_S8x2048x1_S8x2048x2048_0_1_2 y (ix3 b r n) = y (ix3 b r (0 : Fin 1)) :=
  broadcastInDim_apply _ bcast_S8x2048x1_S8x2048x2048_0_1_2 y _ _ (fun a => match a with
    | ⟨0, _⟩ => by show b.val = if (8 : Nat) = 1 then 0 else b.val; rw [if_neg (by decide)]
    | ⟨1, _⟩ => by show r.val = if (2048 : Nat) = 1 then 0 else r.val; rw [if_neg (by decide)]
    | ⟨2, _⟩ => by show 0 = if (1 : Nat) = 1 then 0 else n.val; rw [if_pos rfl])

theorem bcast_col_feat (y : S8x2048x1.Idx → α) (b : Fin 8) (r : Fin 2048) (h : Fin 1024) :
    broadcastInDim S8x2048x1024 ![0, 1, 2] bcast_S8x2048x1_S8x2048x1024_0_1_2 y (ix3 b r h) = y (ix3 b r (0 : Fin 1)) :=
  broadcastInDim_apply _ bcast_S8x2048x1_S8x2048x1024_0_1_2 y _ _ (fun a => match a with
    | ⟨0, _⟩ => by show b.val = if (8 : Nat) = 1 then 0 else b.val; rw [if_neg (by decide)]
    | ⟨1, _⟩ => by show r.val = if (2048 : Nat) = 1 then 0 else r.val; rw [if_neg (by decide)]
    | ⟨2, _⟩ => by show 0 = if (1 : Nat) = 1 then 0 else h.val; rw [if_pos rfl])

theorem bcast_scalar_rows (y : S_.Idx → α) (j : S8x2048.Idx) :
    broadcastInDim S8x2048 ![] bcast_S_S8x2048 y j = y ix0 :=
  broadcastInDim_apply _ bcast_S_S8x2048 y j ix0 (fun a => a.elim0)

theorem bcast_scalar_col (y : S_.Idx → α) (j : S8x2048x1.Idx) :
    broadcastInDim S8x2048x1 ![] bcast_S_S8x2048x1 y j = y ix0 :=
  broadcastInDim_apply _ bcast_S_S8x2048x1 y j ix0 (fun a => a.elim0)

theorem bcast_vec (x : S1024.Idx → α) (b : Fin 8) (r : Fin 2048) (h : Fin 1024) :
    broadcastInDim S8x2048x1024 ![0, 1, 2] bcast_S1x1x1024_S8x2048x1024_0_1_2
        (broadcastInDim S1x1x1024 ![2] bcast_S1024_S1x1x1024_2 x) (ix3 b r h) = x (ix1 h) :=
  (broadcastInDim_apply _ bcast_S1x1x1024_S8x2048x1024_0_1_2 _ _ (ix3 (0 : Fin 1) (0 : Fin 1) h) (fun a => match a with
    | ⟨0, _⟩ => by show 0 = if (1 : Nat) = 1 then 0 else b.val; rw [if_pos rfl]
    | ⟨1, _⟩ => by show 0 = if (1 : Nat) = 1 then 0 else r.val; rw [if_pos rfl]
    | ⟨2, _⟩ => by show h.val = if (1024 : Nat) = 1 then 0 else h.val; rw [if_neg (by decide)])).trans
  (broadcastInDim_apply _ bcast_S1024_S1x1x1024_2 x _ (ix1 h) (fun a => match a with
    | ⟨0, _⟩ => by show h.val = if (1024 : Nat) = 1 then 0 else h.val; rw [if_neg (by decide)]))

end Bcast

end Cert.ReferenceIdeal.RefValue

end
-- ==== Proof.RefReadTail.lean ====
/-
  The last two stages of the reference, read at one entry of the result.

  Projection. Entry (b, r, h) of the projected array is the row made of context row (b, r) followed by query row
  (b, r) — 2048 numbers — contracted with row h of the weight matrix, plus bias h. The contraction runs over one index
  below 2048; splitting nothing, it is the sum over `Fin (1024 + 1024)` of the appended row times the weights, because
  the joined array at feature k is the context for k < 1024 and the query at k - 1024 otherwise.

  Normalisation. For an array P of rows, the per-row mean is the sum of the row (the sum from 0 is the plain sum) over
  the word of 1024; it is broadcast back along the features and subtracted; the variance is the same mean taken of the
  squared deviations; the reciprocal root of the variance plus the small constant is broadcast back and multiplied in;
  gamma and beta, broadcast to every row, scale and shift. Read at (b, r, h), every broadcast picks the row's own
  value, so the entry is the normalisation of row (b, r) of P, as a function of the feature, taken at h.
-/
import proofs.«100237_j17497696764367_2_alg».proof.Proof.RefRun
import proofs.«100237_j17497696764367_2_alg».proof.Proof.RefReadLib
import proofs.«100237_j17497696764367_2_alg».proof.Proof.Spec

open scoped BigOperators

noncomputable section

namespace Cert.ReferenceIdeal.RefValue

open Cert.ReferenceIdeal Cert.ReferenceIdeal.Gen Idealize.ShloMosaic Idealize.ShloMosaic.ValueIdx

open Cert.Attn

theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl

theorem rowMeanOf_apply (P : FVec Ideal S8x2048x1024 .f32) (b : Fin 8) (r : Fin 2048) (u : Fin 1) :
    rowMeanOf (F := Ideal) P (ix3 b r u) = lnMean (fun k : Fin 1024 => P (ix3 b r k)) := by
  unfold rowMeanOf lnMean
  rw [hostDivf_apply, bcast_row_col, bcast_scalar_col, sumFeat_apply, constant_apply]

theorem centredOf_apply (P : FVec Ideal S8x2048x1024 .f32) (b : Fin 8) (r : Fin 2048) (h : Fin 1024) :
    centredOf (F := Ideal) P (ix3 b r h) = P (ix3 b r h) - lnMean (fun k : Fin 1024 => P (ix3 b r k)) := by
  unfold centredOf
  rw [subf_apply, bcast_col_feat, rowMeanOf_apply]

theorem rowVarOf_apply (P : FVec Ideal S8x2048x1024 .f32) (b : Fin 8) (r : Fin 2048) (u : Fin 1) :
    rowVarOf (F := Ideal) P (ix3 b r u) = lnVar (fun k : Fin 1024 => P (ix3 b r k)) := by
  unfold rowVarOf lnVar
  rw [hostDivf_apply, bcast_row_col, bcast_scalar_col, sumFeat_apply, constant_apply]
  simp only [mulf_apply, centredOf_apply]

theorem rowRstdOf_apply (P : FVec Ideal S8x2048x1024 .f32) (b : Fin 8) (r : Fin 2048) (u : Fin 1) :
    rowRstdOf (F := Ideal) P (ix3 b r u)
      = Ideal.rsqrt (lnVar (fun k : Fin 1024 => P (ix3 b r k)) + Ideal.ofBits .f32 0x3727C5AC#32) := by
  unfold rowRstdOf
  rw [hostRsqrt_apply, addf_apply, rowVarOf_apply, bcast_scalar_col, constant_apply]

theorem normRows_apply (P : FVec Ideal S8x2048x1024 .f32) (g be : FVec Ideal S1024 .f32) (b : Fin 8) (r : Fin 2048) (h : Fin 1024) :
    normRows (F := Ideal) P g be (ix3 b r h)
      = ln (fun k : Fin 1024 => P (ix3 b r k)) (fun k => g (ix1 k)) (fun k => be (ix1 k)) h := by
  unfold normRows ln
  rw [addf_apply, mulf_apply, mulf_apply, centredOf_apply, bcast_col_feat, rowRstdOf_apply, bcast_vec, bcast_vec]

theorem projectedOf_apply (C Q : FVec Ideal S8x2048x1024 .f32) (x2 : FVec Ideal S1024x2048 .f32) (x3 : FVec Ideal S1024 .f32)
    (b : Fin 8) (r : Fin 2048) (h : Fin 1024) :
    projectedOf (F := Ideal) C Q x2 x3 (ix3 b r h)
      = projRef (D := 1024) (H := 1024) (fun d => C (ix3 b r d)) (fun d => Q (ix3 b r d))
          (fun h k => x2 (ix2 h (Fin.cast (by norm_num) k))) (fun h => x3 (ix1 h)) h := by
  unfold projectedOf projRef joinRows
  rw [addf_apply, bcast_vec, dotW_apply]
  congr 1
  refine (Fintype.sum_equiv (finCongr (by norm_num : 1024 + 1024 = 2048)) _ _ fun k => ?_).symm
  rw [← concat_apply]
  rfl

theorem tail_apply (C Q : FVec Ideal S8x2048x1024 .f32) (x2 : FVec Ideal S1024x2048 .f32) (x3 x4 x5 : FVec Ideal S1024 .f32)
    (b : Fin 8) (r : Fin 2048) (h : Fin 1024) :
    normRows (F := Ideal) (projectedOf (F := Ideal) C Q x2 x3) x4 x5 (ix3 b r h)
      = Cert.Attn.ln (Cert.Attn.projRef (D := 1024) (H := 1024) (fun d => C (ix3 b r d)) (fun d => Q (ix3 b r d))
            (fun h k => x2 (ix2 h (Fin.cast (by norm_num) k))) (fun h => x3 (ix1 h)))
          (fun h => x4 (ix1 h)) (fun h => x5 (ix1 h)) h := by
  rw [normRows_apply]
  congr 1
  funext k
  exact projectedOf_apply C Q x2 x3 b r k

end Cert.ReferenceIdeal.RefValue

end
-- ==== Proof.RefRead.lean ====
/-
  The reference program's result array is the target function of its six argument arrays.

  The run (RefRun) leaves in the result array the last of the program's stages. Here each stage of the attention half
  is read at one row: for batch b and query row r, with q the query row and V the value rows of the batch, a score is
  the dot product of q with a key row; the row's maximum is the largest score taken from -∞ (the program's second
  maximum against a -∞ splat is absorbed, -∞ being the bottom of the extended reals); the exponentials less the
  maximum are the unnormalised weights; their sum from 0 is the plain sum; the quotient is the softmax weight; and the
  weighted sum of the value rows is the context row. The projection and the normalisation of the projected row are
  read in RefReadTail over an arbitrary context array; put together, entry (b, r, h) of the last stage is feature h of
  the specification's result row, which is what the target function is at (b, r, h).
-/
import proofs.«100237_j17497696764367_2_alg».proof.Proof.RefRun
import proofs.«100237_j17497696764367_2_alg».proof.Proof.RefReadLib
import proofs.«100237_j17497696764367_2_alg».proof.Proof.RefReadTail
import proofs.«100237_j17497696764367_2_alg».proof.Proof.Whole
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Idealize.ShloMosaic Idealize.ShloMosaic.TcCoe Idealize.SL.Sem Idealize.ShloMosaic.ValueIdx Cert.Attn

/-! ## The attention half, row by row

Fix a batch `b` and a query row `r`. The query row is `q d = x0 (b, r, d)` and the value rows of the batch are
`V n d = x1 (b, n, d)`; each stage of the program read at `(b, r, ·)` is the matching quantity of the specification. -/

/-- The host's exponential at an index. -/
theorem hostExp_apply {s : Shape} (x : FVec Ideal s .f32) (i : s.Idx) : Host.exp x i = Ideal.exp (x i) := rfl

section Head
variable (x0 x1 : FVec Ideal S8x2048x1024 .f32) (b : Fin 8) (r : Fin 2048)

/-- A score is the dot product of the query row with a key row. -/
theorem scores_eq (n : Fin 2048) :
    scores (F := Ideal) x0 x1 (ix3 b r n) = dot (fun d : Fin 1024 => x0 (ix3 b r d)) (fun d : Fin 1024 => x1 (ix3 b n d)) := by
  unfold scores dot
  exact dotQK_apply x0 x1 b r n

/-- The row's maximum is the largest score from -∞: the extra maximum against the -∞ splat changes nothing. -/
theorem rowMax_eq :
    rowMax (F := Ideal) x0 x1 (ix2 b r)
      = smax fun n : Fin 2048 => dot (fun d : Fin 1024 => x0 (ix3 b r d)) (fun d : Fin 1024 => x1 (ix3 b n d)) := by
  unfold rowMax smax
  rw [maximumf_apply, bcast_scalar_rows, constant_apply, negInf, max_bot_left, maxKeys_apply]
  exact congrArg (fun f => Finset.fold max ⊥ f (Finset.univ : Finset (Fin 2048))) (funext fun n => scores_eq x0 x1 b r n)

/-- The exponential of a score less the row's maximum is the unnormalised weight. -/
theorem expScores_eq (n : Fin 2048) :
    expScores (F := Ideal) x0 x1 (ix3 b r n)
      = wRef (fun d : Fin 1024 => x0 (ix3 b r d)) (fun (n : Fin 2048) (d : Fin 1024) => x1 (ix3 b n d)) n := by
  unfold expScores wRef
  rw [hostExp_apply, subf_apply, bcast_col_keys, bcast_row_col, scores_eq, rowMax_eq]

/-- The row's sum of exponentials, from 0, is the normaliser. -/
theorem rowSum_eq :
    rowSum (F := Ideal) x0 x1 (ix2 b r)
      = ∑ n : Fin 2048, wRef (fun d : Fin 1024 => x0 (ix3 b r d)) (fun (n : Fin 2048) (d : Fin 1024) => x1 (ix3 b n d)) n := by
  unfold rowSum
  rw [sumKeys_apply]
  exact Finset.sum_congr rfl fun n _ => expScores_eq x0 x1 b r n

/-- A softmax weight is the unnormalised weight over the normaliser. -/
theorem weights_eq (n : Fin 2048) :
    weights (F := Ideal) x0 x1 (ix3 b r n)
      = Ideal.div (wRef (fun d : Fin 1024 => x0 (ix3 b r d)) (fun (n : Fin 2048) (d : Fin 1024) => x1 (ix3 b n d)) n)
          (∑ n' : Fin 2048, wRef (fun d : Fin 1024 => x0 (ix3 b r d)) (fun (n : Fin 2048) (d : Fin 1024) => x1 (ix3 b n d)) n') := by
  unfold weights
  rw [hostDivf_apply, bcast_col_keys, bcast_row_col, expScores_eq, rowSum_eq]

/-- The context row is the specification's: the value rows weighted by the softmax of the scores. -/
theorem context_eq (d : Fin 1024) :
    context (F := Ideal) x0 x1 (ix3 b r d)
      = ctxRef (fun d : Fin 1024 => x0 (ix3 b r d)) (fun (n : Fin 2048) (d : Fin 1024) => x1 (ix3 b n d)) d := by
  unfold context ctxRef
  rw [dotPV_apply]
  exact Finset.sum_congr rfl fun n _ => by rw [weights_eq]

end Head

/-! ## The whole result -/

/-- The last stage is the target function of the six argument arrays: entry (b, r, h) of both is feature h of the
    normalised projection of (context row, query row) for query row r of batch b. -/
theorem out_eq_G (x0 x1 : FVec Ideal S8x2048x1024 .f32) (x2 : FVec Ideal S1024x2048 .f32) (x3 x4 x5 : FVec Ideal S1024 .f32) :
    out (F := Ideal) x0 x1 x2 x3 x4 x5 = Cert.Attn.G x0 x1 x2 x3 x4 x5 := by
  funext i
  obtain ⟨b, r, h, rfl⟩ : ∃ b r h, i = ix3 b r h := ⟨i 0, i 1, i 2, eq_ix3 i⟩
  rw [G_ix3]
  unfold out projected Grow outRef
  rw [tail_apply]
  exact congrArg (fun c : Fin 1024 → EReal =>
      ln (projRef c (fun d : Fin 1024 => x0 (ix3 b r d)) (fun (h : Fin 1024) (k : Fin (1024 + 1024)) => x2 (ix2 h (Fin.cast (by norm_num) k)))
        (fun h : Fin 1024 => x3 (ix1 h))) (fun h : Fin 1024 => x4 (ix1 h)) (fun h : Fin 1024 => x5 (ix1 h)) h)
    (funext fun d => context_eq x0 x1 b r d)

/-- On every device, from any memory with zero counters: every weakly fair execution of the reference's @main at the
    ideal values terminates with the result array equal to the target function of the six argument arrays' launch
    contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = Cert.Attn.G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_eq_G _ _ _ _ _ _), (h c).2⟩) (runOut (F := Ideal) m ρ)

end Cert.ReferenceIdeal.RefValue

end
-- ==== Proof.FiniteInputs.lean ====
/-
  From the precondition to real numbers.

  The precondition says, on every device, that one bit is set: the conjunction over the six argument arrays of
  "every entry x of the array satisfies |x| < +∞", where |x| is `max x (-x)` and `+∞` is what the f32 word
  0x7F800000 denotes. A conjunction that is set has every conjunct set, and an `and` over a whole array that is set
  has every entry's bit set. For an extended real x, `max x (-x) < +∞` excludes x = +∞ directly and x = -∞ through
  its negation; what is left is a real number. Hence every entry of every argument array is (the inclusion of) a real.
-/
import proofs.«100237_j17497696764367_2_alg».proof.Defs
import proofs.«100237_j17497696764367_2_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem
open Cert.Pre_finite_inputs.Gen

/-- The empty shape has one index. -/
instance : Subsingleton (⟨0, ![]⟩ : Shape).Idx := ⟨fun a b => funext fun d => d.elim0⟩

/-- An extended real whose absolute value `max x (-x)` lies strictly below `+∞` is a real number:
    `+∞` fails at once, and `-∞` fails because its negation is `+∞`. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have h' : max x (-x) < ⊤ := by
    by_contra hn
    simp [hn] at h
  rw [max_lt_iff] at h'
  induction x using EReal.rec with
  | bot => simp at h'
  | coe r => exact ⟨r, rfl⟩
  | top => simp at h'

/-- "All entries have absolute value below `+∞`", reduced by `and` over every axis to one bit that is set,
    makes every entry a real number. -/
theorem all_real {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel) (c0 : IVec ⟨0, ![]⟩ 1)
    (e : Host.reduce IntOp.andi
          (cmpf .olt (Host.absf x) (broadcastInDim s ![] hb (constant ⟨0, ![]⟩ .f32 0x7F800000#32)))
          c0 hr hu ValueIdx.ix0 = 1#1)
    (i : s.Idx) : ∃ r : ℝ, x i = (r : EReal) :=
  real_of_abs_lt_inf (x i) (Host.reduce_andi_all _ _ hr hu ValueIdx.ix0 e i)

/-! The precondition on a device is one bit: the `and` of six bits, one per argument array, each the `and` over
the array of "this entry's absolute value is below `+∞`". Read at its one index and split, bit `k` gives
every entry of array `k` real. -/

theorem real_arg0 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x2048x1024.Idx) :
    ∃ r : ℝ, m ((c.tc : Thread Cert.KernelIdeal.nD Cert.KernelIdeal.τ).loc Cert.KernelIdeal.main_arg0) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h0 i

theorem real_arg1 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x2048x1024.Idx) :
    ∃ r : ℝ, m ((c.tc : Thread Cert.KernelIdeal.nD Cert.KernelIdeal.τ).loc Cert.KernelIdeal.main_arg1) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h1 i

theorem real_arg2 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1024x2048.Idx) :
    ∃ r : ℝ, m ((c.tc : Thread Cert.KernelIdeal.nD Cert.KernelIdeal.τ).loc Cert.KernelIdeal.main_arg2) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h2 i

theorem real_arg3 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1024.Idx) :
    ∃ r : ℝ, m ((c.tc : Thread Cert.KernelIdeal.nD Cert.KernelIdeal.τ).loc Cert.KernelIdeal.main_arg3) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h3 i

theorem real_arg4 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1024.Idx) :
    ∃ r : ℝ, m ((c.tc : Thread Cert.KernelIdeal.nD Cert.KernelIdeal.τ).loc Cert.KernelIdeal.main_arg4) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h4 i

theorem real_arg5 (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1024.Idx) :
    ∃ r : ℝ, m ((c.tc : Thread Cert.KernelIdeal.nD Cert.KernelIdeal.τ).loc Cert.KernelIdeal.main_arg5) i = (r : EReal) := by
  have e := congrFun (hpre c) ValueIdx.ix0
  unfold Cert.Pre_finite_inputs.fn Cert.Pre_finite_inputs.fn_part1 at e
  dsimp only at e
  simp only [andi, IntOp.andi_eq_one] at e
  obtain ⟨⟨⟨⟨⟨h0, h1⟩, h2⟩, h3⟩, h4⟩, h5⟩ := e
  exact all_real _ _ _ _ _ h5 i

end Cert.KernelIdeal.Finite

end
-- ==== Proof.lean ====
/-
  The certificate's five claims.

  The three frames: the two kernels' are the generated frame runs; the reference's is its run with the result dropped.
  The idealisation rewrote nothing, so `preserves` is trivial. For `algebraic`: under the precondition every query
  and value entry is a real number (FiniteInputs), so the kernel's result array ends at `G` of its arguments
  (KernelValue: the two-tile online softmax, the split projection and the normalisation, block by block), and the
  reference's ends at the same `G` of arguments that agree (RefRead: the softmax over all keys at once).
-/
import proofs.«100237_j17497696764367_2_alg».proof.Defs
import proofs.«100237_j17497696764367_2_alg».proof.Proof.Gen.Kernel
import proofs.«100237_j17497696764367_2_alg».proof.Proof.Gen.Kernel.Frame
import proofs.«100237_j17497696764367_2_alg».proof.Proof.Gen.KernelIdeal
import proofs.«100237_j17497696764367_2_alg».proof.Proof.Gen.KernelIdeal.Frame
import proofs.«100237_j17497696764367_2_alg».proof.Proof.Gen.ReferenceIdeal
import proofs.«100237_j17497696764367_2_alg».proof.Proof.Gen.Pre_finite_inputs
import proofs.«100237_j17497696764367_2_alg».proof.Proof.KernelValue
import proofs.«100237_j17497696764367_2_alg».proof.Proof.RefRead
import proofs.«100237_j17497696764367_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

theorem algebraic : Cert.algebraic_KernelIdeal_ReferenceIdeal := by
  intro m ρ m' ρ' hpre hagree
  refine ⟨fun c => Cert.KernelIdeal.KValue.Gk m c,
    Cert.KernelIdeal.KValue.run m ρ (Cert.KernelIdeal.Finite.real_arg0 m hpre) (Cert.KernelIdeal.Finite.real_arg1 m hpre), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
